-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x16 : Shape := ⟨2, ![200000, 16]⟩
abbrev S200000x128 : Shape := ⟨2, ![200000, 128]⟩
abbrev S1600000 : Shape := ⟨1, ![1600000]⟩
abbrev S128x144 : Shape := ⟨2, ![128, 144]⟩
abbrev S128 : Shape := ⟨1, ![128]⟩
abbrev S128x128 : Shape := ⟨2, ![128, 128]⟩
abbrev S384x128 : Shape := ⟨2, ![384, 128]⟩
abbrev S384 : Shape := ⟨1, ![384]⟩
abbrev S_ : Shape := ⟨0, ![]⟩

class Facts : Prop where
  bcast_S_S200000x16 : S_.BroadcastsInDim S200000x16 (![] : Fin 0 → Fin S200000x16.rank)
  reducesTo_S200000x16_S_d0_1 : S200000x16.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S1600000 : S_.BroadcastsInDim S1600000 (![] : Fin 0 → Fin S1600000.rank)
  reducesTo_S1600000_S_d0 : S1600000.ReducesTo [0] S_
  bcast_S_S128x144 : S_.BroadcastsInDim S128x144 (![] : Fin 0 → Fin S128x144.rank)
  reducesTo_S128x144_S_d0_1 : S128x144.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part3 {F : FTy → Type} [FloatOps F] (main_v48 : IVec S_ 1) (main_v49 : FVec F S384 .f32) (main_v50 : FVec F S384 .f32) : IVec S_ 1 :=
  let main_v51 : IVec S384 1 := cmpf .olt main_v49 main_v50
  let main_c_19 : IVec S_ 1 := constantI S_ 1 1#1
  let main_v52 : IVec S_ 1 := (fun x v => Host.reduce IntOp.andi x v reducesTo_S384_S_d0 h_S_) main_v51 main_c_19
  let main_v53 : IVec S_ 1 := andi main_v48 main_v52
  main_v53

def fn_part2 {F : FTy → Type} [FloatOps F] (main_arg9 : FVec F S384x128 .f32) (main_arg10 : FVec F S384x128 .f32) (main_arg11 : FVec F S384 .f32) (main_arg12 : FVec F S384 .f32) (main_v33 : IVec S_ 1) : IVec S_ 1 :=
  let main_v34 : FVec F S384x128 .f32 := Host.absf main_arg9
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S384x128 .f32 := Host.absf main_arg10
  let main_cst_14 : FVec F S_ .f32 := constant S_ .f32 0x7F800000#32
  let main_v40 : FVec F S384x128 .f32 := broadcastInDim S384x128 ![] bcast_S_S384x128 main_cst_14
  let main_v41 : IVec S384x128 1 := cmpf .olt main_v39 main_v40
  let main_c_15 : IVec S_ 1 := constantI S_ 1 1#1
  let main_v42 : IVec S_ 1 := (fun x v => Host.reduce IntOp.andi x v reducesTo_S384x128_S_d0_1 h_S_) main_v41 main_c_15
  let main_v43 : IVec S_ 1 := andi main_v38 main_v42
  let main_v44 : FVec F S384 .f32 := Host.absf main_arg11
  let main_cst_16 : FVec F S_ .f32 := constant S_ .f32 0x7F800000#32
  let main_v45 : FVec F S384 .f32 := broadcastInDim S384 ![] bcast_S_S384 main_cst_16
  let main_v46 : IVec S384 1 := cmpf .olt main_v44 main_v45
  let main_c_17 : IVec S_ 1 := constantI S_ 1 1#1
  let main_v47 : IVec S_ 1 := (fun x v => Host.reduce IntOp.andi x v reducesTo_S384_S_d0 h_S_) main_v46 main_c_17
  let main_v48 : IVec S_ 1 := andi main_v43 main_v47
  let main_v49 : FVec F S384 .f32 := Host.absf main_arg12
  let main_cst_18 : FVec F S_ .f32 := constant S_ .f32 0x7F800000#32
  let main_v50 : FVec F S384 .f32 := broadcastInDim S384 ![] bcast_S_S384 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S384x128 .f32) (main_arg10 : FVec F S384x128 .f32) (main_arg11 : FVec F S384 .f32) (main_arg12 : FVec F S384 .f32) (main_v13 : IVec S_ 1) (main_v16 : IVec S128x144 1) : IVec S_ 1 :=
  let main_c_5 : IVec S_ 1 := constantI S_ 1 1#1
  let main_v17 : IVec S_ 1 := (fun x v => Host.reduce IntOp.andi x v reducesTo_S128x144_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S200000x16 .f32) (main_arg1 : FVec F S200000x128 .f32) (main_arg2 : IVec S1600000 32) (main_arg3 : IVec S1600000 32) (main_arg4 : FVec F S1600000 .f32) (main_arg5 : FVec F S128x144 .f32) (main_arg6 : FVec F S128 .f32) (main_arg7 : FVec F S128x128 .f32) (main_arg8 : FVec F S128 .f32) (main_arg9 : FVec F S384x128 .f32) (main_arg10 : FVec F S384x128 .f32) (main_arg11 : FVec F S384 .f32) (main_arg12 : FVec F S384 .f32) : IVec S_ 1 :=
  let main_v0 : FVec F S200000x16 .f32 := Host.absf main_arg0
  let main_cst : FVec F S_ .f32 := constant S_ .f32 0x7F800000#32
  let main_v1 : FVec F S200000x16 .f32 := broadcastInDim S200000x16 ![] bcast_S_S200000x16 main_cst
  let main_v2 : IVec S200000x16 1 := cmpf .olt main_v0 main_v1
  let main_c : IVec S_ 1 := constantI S_ 1 1#1
  let main_v3 : IVec S_ 1 := (fun x v => Host.reduce IntOp.andi x v reducesTo_S200000x16_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S1600000 .f32 := Host.absf main_arg4
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S128x144 .f32 := Host.absf main_arg5
  let main_cst_4 : FVec F S_ .f32 := constant S_ .f32 0x7F800000#32
  let main_v15 : FVec F S128x144 .f32 := broadcastInDim S128x144 ![] bcast_S_S128x144 main_cst_4
  let main_v16 : IVec S128x144 1 := cmpf .olt main_v14 main_v15
  fn_part1 (F := F) main_arg6 main_arg7 main_arg8 main_arg9 main_arg10 main_arg11 main_arg12 main_v13 main_v16
-- ==== Kernel.lean ====
abbrev S200000x16 : Shape := ⟨2, ![200000, 16]⟩
abbrev S200000x128 : Shape := ⟨2, ![200000, 128]⟩
abbrev S1600000 : Shape := ⟨1, ![1600000]⟩
abbrev S128x144 : Shape := ⟨2, ![128, 144]⟩
abbrev S128 : Shape := ⟨1, ![128]⟩
abbrev S128x128 : Shape := ⟨2, ![128, 128]⟩
abbrev S384x128 : Shape := ⟨2, ![384, 128]⟩
abbrev S384 : Shape := ⟨1, ![384]⟩
abbrev S128x16 : Shape := ⟨2, ![128, 16]⟩
abbrev S1x128 : Shape := ⟨2, ![1, 128]⟩
abbrev S5000x128 : Shape := ⟨2, ![5000, 128]⟩
abbrev S5000x16 : Shape := ⟨2, ![5000, 16]⟩
abbrev S16x128 : Shape := ⟨2, ![16, 128]⟩
abbrev S_ : Shape := ⟨0, ![]⟩
abbrev S1600000x1 : Shape := ⟨2, ![1600000, 1]⟩
abbrev S1600000x128 : Shape := ⟨2, ![1600000, 128]⟩
abbrev S1x384 : Shape := ⟨2, ![1, 384]⟩
abbrev S2000x128 : Shape := ⟨2, ![2000, 128]⟩
abbrev S128x384 : Shape := ⟨2, ![128, 384]⟩
abbrev S2000x384 : Shape := ⟨2, ![2000, 384]⟩

abbrev nBuf : Space → Nat
  | .hbm => 37
  | .vmem => 21
  | .smem => 0
  | _ => 0

abbrev bufTy : (tb : Table) → Fin (tcTables nBuf tb) → BufTy
  | .hbm, ⟨0, _⟩ => ⟨S200000x16, .f32⟩
  | .hbm, ⟨1, _⟩ => ⟨S200000x128, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S128x144, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S384x128, .f32⟩
  | .hbm, ⟨10, _⟩ => ⟨S384x128, .f32⟩
  | .hbm, ⟨11, _⟩ => ⟨S384, .f32⟩
  | .hbm, ⟨12, _⟩ => ⟨S384, .f32⟩
  | .hbm, ⟨13, _⟩ => ⟨S128x128, .f32⟩
  | .hbm, ⟨14, _⟩ => ⟨S128x16, .f32⟩
  | .hbm, ⟨15, _⟩ => ⟨S1x128, .f32⟩
  | .hbm, ⟨16, _⟩ => ⟨S200000x128, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S1600000x1, .f32⟩
  | .hbm, ⟨27, _⟩ => ⟨S1600000x128, .f32⟩
  | .hbm, ⟨28, _⟩ => ⟨S1600000x128, .f32⟩
  | .hbm, ⟨29, _⟩ => ⟨S_, .f32⟩
  | .hbm, ⟨30, _⟩ => ⟨S200000x128, .f32⟩
  | .hbm, ⟨31, _⟩ => ⟨S1600000x1, .i32⟩
  | .hbm, ⟨32, _⟩ => ⟨S200000x128, .f32⟩
  | .hbm, ⟨33, _⟩ => ⟨S1x128, .f32⟩
  | .hbm, ⟨34, _⟩ => ⟨S1x384, .f32⟩
  | .hbm, ⟨35, _⟩ => ⟨S1x384, .f32⟩
  | .hbm, ⟨36, _⟩ => ⟨S200000x128, .f32⟩
  | .local _ .vmem, ⟨0, _⟩ => ⟨S5000x128, .f32⟩
  | .local _ .vmem, ⟨1, _⟩ => ⟨S5000x128, .f32⟩
  | .local _ .vmem, ⟨2, _⟩ => ⟨S5000x16, .f32⟩
  | .local _ .vmem, ⟨3, _⟩ => ⟨S5000x16, .f32⟩
  | .local _ .vmem, ⟨4, _⟩ => ⟨S128x128, .f32⟩
  | .local _ .vmem, ⟨5, _⟩ => ⟨S128x16, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S384x128, .f32⟩
  | .local _ .vmem, ⟨16, _⟩ => ⟨S384x128, .f32⟩
  | .local _ .vmem, ⟨17, _⟩ => ⟨S1x384, .f32⟩
  | .local _ .vmem, ⟨18, _⟩ => ⟨S1x384, .f32⟩
  | .local _ .vmem, ⟨19, _⟩ => ⟨S2000x128, .f32⟩
  | .local _ .vmem, ⟨20, _⟩ => ⟨S2000x128, .f32⟩
  | _, _ => ⟨S200000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem8_1 : DmaSem sig := 20

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S384x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S384x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x384 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S128x144_S128x128_0_0 : S128x144.Slices ![0, 0] S128x128
  slices_S128x144_S128x16_0_128 : S128x144.Slices ![0, 128] S128x16
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  inb_S5000x16_S5000x16_0_0 : ∀ a, (![0, 0] : Fin 2 → Nat) a + S5000x16.size a ≤ S5000x16.size a
  h_S5000x16 : 0 < S5000x16.numel
  inb_S128x16_S128x16_0_0 : ∀ a, (![0, 0] : Fin 2 → Nat) a + S128x16.size a ≤ S128x16.size a
  h_S128x16 : 0 < S128x16.numel
  shapeCasts_S128x16_S128x16 : S128x16.ShapeCasts S128x16
  transposes_S128x16_p1_0_S16x128 : S128x16.Transposes [1, 0] S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S200000x128 : S_.BroadcastsInDim S200000x128 (![] : Fin 0 → Fin S200000x128.rank)
  shapeCasts_S384_S1x384 : S384.ShapeCasts S1x384
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  inb_S384x128_S384x128_0_0 : ∀ a, (![0, 0] : Fin 2 → Nat) a + S384x128.size a ≤ S384x128.size a
  h_S384x128 : 0 < S384x128.numel
  transposes_S384x128_p1_0_S128x384 : S384x128.Transposes [1, 0] S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  dot_S5000x128_S128x128_S5000x128_1_0_0_1_n_n_wf : DotDims.WF S5000x128 S128x128 S5000x128 [1] [0] [0] [1] [] []
  dot_S5000x16_S16x128_S5000x128_1_0_0_1_n_n_wf : DotDims.WF S5000x16 S16x128 S5000x128 [1] [0] [0] [1] [] []
  gather_S200000x128_S1600000x1_S1600000x128_1_0_n_n_0_1_1128_wf : GatherDims.WF S200000x128 S1600000x1 S1600000x128 [1] [0] [] [0] [] 1 ![1, 128]
  scatter_S200000x128_S1600000x1_S1600000x128_1_0_0_1_wf : ScatterDims.WF S200000x128 S1600000x1 S1600000x128 [1] [0] [0] 1
  dot_S2000x128_S128x128_S2000x128_1_0_0_1_n_n_wf : DotDims.WF S2000x128 S128x128 S2000x128 [1] [0] [0] [1] [] []
  dot_S2000x128_S128x384_S2000x384_1_0_0_1_n_n_wf : DotDims.WF S2000x128 S128x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S200000x128.size a
  hwx0_0 : ∀ i : grid0.Coords, EltTy.bits .f32 = 32 ∨ (Rect.block (s := S200000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x16.size a ≤ S200000x16.size a
  hwx0_1 : ∀ i : grid0.Coords, EltTy.bits .f32 = 32 ∨ (Rect.block (s := S200000x16) S5000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x16.size a ≤ S128x16.size a
  hwx0_3 : ∀ i : grid0.Coords, EltTy.bits .f32 = 32 ∨ (Rect.block (s := S128x16) S128x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S200000x128.size a
  hwx0_5 : ∀ i : grid0.Coords, EltTy.bits .f32 = 32 ∨ (Rect.block (s := S200000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S200000x128.size a
  hwx1_0 : ∀ i : grid1.Coords, EltTy.bits .f32 = 32 ∨ (Rect.block (s := S200000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S200000x128.size a
  hwx1_1 : ∀ i : grid1.Coords, EltTy.bits .f32 = 32 ∨ (Rect.block (s := S200000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S384x128.size a ≤ S384x128.size a
  hwx1_4 : ∀ i : grid1.Coords, EltTy.bits .f32 = 32 ∨ (Rect.block (s := S384x128) S384x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S384x128.size a ≤ S384x128.size a
  hwx1_5 : ∀ i : grid1.Coords, EltTy.bits .f32 = 32 ∨ (Rect.block (s := S384x128) S384x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x384.size a ≤ S1x384.size a
  hwx1_6 : ∀ i : grid1.Coords, EltTy.bits .f32 = 32 ∨ (Rect.block (s := S1x384) S1x384.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x384.size a ≤ S1x384.size a
  hwx1_7 : ∀ i : grid1.Coords, EltTy.bits .f32 = 32 ∨ (Rect.block (s := S1x384) S1x384.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S200000x128.size a
  hwx1_8 : ∀ i : grid1.Coords, EltTy.bits .f32 = 32 ∨ (Rect.block (s := S200000x128) S2000x128.size (cc1_transform_8 i) (hinb1_8 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def gather_S200000x128_S1600000x1_S1600000x128_1_0_n_n_0_1_1128 : GatherDims S200000x128 S1600000x1 S1600000x128 where
  offsetDims := [1]
  collapsedSliceDims := [0]
  operandBatchingDims := []
  startIndicesBatchingDims := []
  startIndexMap := [0]
  indexVectorDim := 1
  sliceSizes := ![1, 128]
  wf := gather_S200000x128_S1600000x1_S1600000x128_1_0_n_n_0_1_1128_wf
def scatter_S200000x128_S1600000x1_S1600000x128_1_0_0_1 : ScatterDims S200000x128 S1600000x1 S1600000x128 where
  updateWindowDims := [1]
  insertedWindowDims := [0]
  scatterDimsToOperandDims := [0]
  indexVectorDim := 1
  wf := scatter_S200000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v16) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S384x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S384x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S1x384.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19) S1x384.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v20) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S200000x16 : Shape := ⟨2, ![200000, 16]⟩
abbrev S200000x128 : Shape := ⟨2, ![200000, 128]⟩
abbrev S1600000 : Shape := ⟨1, ![1600000]⟩
abbrev S128x144 : Shape := ⟨2, ![128, 144]⟩
abbrev S128 : Shape := ⟨1, ![128]⟩
abbrev S128x128 : Shape := ⟨2, ![128, 128]⟩
abbrev S384x128 : Shape := ⟨2, ![384, 128]⟩
abbrev S384 : Shape := ⟨1, ![384]⟩
abbrev S200000x144 : Shape := ⟨2, ![200000, 144]⟩
abbrev S144x128 : Shape := ⟨2, ![144, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S128x384 : Shape := ⟨2, ![128, 384]⟩
abbrev S200000x384 : Shape := ⟨2, ![200000, 384]⟩
abbrev S1x384 : Shape := ⟨2, ![1, 384]⟩

abbrev nBuf : Space → Nat
  | .hbm => 89
  | .vmem => 0
  | .smem => 0
  | _ => 0

abbrev bufTy : (tb : Table) → Fin (tcTables nBuf tb) → BufTy
  | .hbm, ⟨0, _⟩ => ⟨S200000x16, .f32⟩
  | .hbm, ⟨1, _⟩ => ⟨S200000x128, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S128x144, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S384x128, .f32⟩
  | .hbm, ⟨10, _⟩ => ⟨S384x128, .f32⟩
  | .hbm, ⟨11, _⟩ => ⟨S384, .f32⟩
  | .hbm, ⟨12, _⟩ => ⟨S384, .f32⟩
  | .hbm, ⟨13, _⟩ => ⟨S200000x144, .f32⟩
  | .hbm, ⟨14, _⟩ => ⟨S144x128, .f32⟩
  | .hbm, ⟨15, _⟩ => ⟨S200000x128, .f32⟩
  | .hbm, ⟨16, _⟩ => ⟨S1x128, .f32⟩
  | .hbm, ⟨17, _⟩ => ⟨S200000x128, .f32⟩
  | .hbm, ⟨18, _⟩ => ⟨S200000x128, .f32⟩
  | .hbm, ⟨19, _⟩ => ⟨S_, .f32⟩
  | .hbm, ⟨20, _⟩ => ⟨S200000x128, .f32⟩
  | .hbm, ⟨21, _⟩ => ⟨S200000x128, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S1600000x1, .f32⟩
  | .hbm, ⟨32, _⟩ => ⟨S1600000x128, .f32⟩
  | .hbm, ⟨33, _⟩ => ⟨S1600000x128, .f32⟩
  | .hbm, ⟨34, _⟩ => ⟨S_, .f32⟩
  | .hbm, ⟨35, _⟩ => ⟨S200000x128, .f32⟩
  | .hbm, ⟨36, _⟩ => ⟨S1600000x1, .i32⟩
  | .hbm, ⟨37, _⟩ => ⟨S200000x128, .f32⟩
  | .hbm, ⟨38, _⟩ => ⟨S128x128, .f32⟩
  | .hbm, ⟨39, _⟩ => ⟨S200000x128, .f32⟩
  | .hbm, ⟨40, _⟩ => ⟨S1x128, .f32⟩
  | .hbm, ⟨41, _⟩ => ⟨S200000x128, .f32⟩
  | .hbm, ⟨42, _⟩ => ⟨S200000x128, .f32⟩
  | .hbm, ⟨43, _⟩ => ⟨S_, .f32⟩
  | .hbm, ⟨44, _⟩ => ⟨S200000x128, .f32⟩
  | .hbm, ⟨45, _⟩ => ⟨S200000x128, .f32⟩
  | .hbm, ⟨46, _⟩ => ⟨S128x384, .f32⟩
  | .hbm, ⟨47, _⟩ => ⟨S200000x384, .f32⟩
  | .hbm, ⟨48, _⟩ => ⟨S1x384, .f32⟩
  | .hbm, ⟨49, _⟩ => ⟨S200000x384, .f32⟩
  | .hbm, ⟨50, _⟩ => ⟨S200000x384, .f32⟩
  | .hbm, ⟨51, _⟩ => ⟨S128x384, .f32⟩
  | .hbm, ⟨52, _⟩ => ⟨S200000x384, .f32⟩
  | .hbm, ⟨53, _⟩ => ⟨S1x384, .f32⟩
  | .hbm, ⟨54, _⟩ => ⟨S200000x384, .f32⟩
  | .hbm, ⟨55, _⟩ => ⟨S200000x384, .f32⟩
  | .hbm, ⟨56, _⟩ => ⟨S200000x128, .f32⟩
  | .hbm, ⟨57, _⟩ => ⟨S200000x128, .f32⟩
  | .hbm, ⟨58, _⟩ => ⟨S200000x128, .f32⟩
  | .hbm, ⟨59, _⟩ => ⟨S200000x128, .f32⟩
  | .hbm, ⟨60, _⟩ => ⟨S200000x128, .f32⟩
  | .hbm, ⟨61, _⟩ => ⟨S200000x128, .f32⟩
  | .hbm, ⟨62, _⟩ => ⟨S200000x128, .f32⟩
  | .hbm, ⟨63, _⟩ => ⟨S200000x128, .f32⟩
  | .hbm, ⟨64, _⟩ => ⟨S200000x128, .f32⟩
  | .hbm, ⟨65, _⟩ => ⟨S_, .f32⟩
  | .hbm, ⟨66, _⟩ => ⟨S200000x128, .f32⟩
  | .hbm, ⟨67, _⟩ => ⟨S200000x128, .f32⟩
  | .hbm, ⟨68, _⟩ => ⟨S_, .f32⟩
  | .hbm, ⟨69, _⟩ => ⟨S200000x128, .f32⟩
  | .hbm, ⟨70, _⟩ => ⟨S200000x128, .f32⟩
  | .hbm, ⟨71, _⟩ => ⟨S200000x128, .f32⟩
  | .hbm, ⟨72, _⟩ => ⟨S200000x128, .f32⟩
  | .hbm, ⟨73, _⟩ => ⟨S200000x128, .f32⟩
  | .hbm, ⟨74, _⟩ => ⟨S_, .f32⟩
  | .hbm, ⟨75, _⟩ => ⟨S200000x128, .f32⟩
  | .hbm, ⟨76, _⟩ => ⟨S200000x128, .f32⟩
  | .hbm, ⟨77, _⟩ => ⟨S_, .f32⟩
  | .hbm, ⟨78, _⟩ => ⟨S200000x128, .f32⟩
  | .hbm, ⟨79, _⟩ => ⟨S200000x128, .f32⟩
  | .hbm, ⟨80, _⟩ => ⟨S200000x128, .f32⟩
  | .hbm, ⟨81, _⟩ => ⟨S200000x128, .f32⟩
  | .hbm, ⟨82, _⟩ => ⟨S200000x128, .f32⟩
  | .hbm, ⟨83, _⟩ => ⟨S_, .f32⟩
  | .hbm, ⟨84, _⟩ => ⟨S200000x128, .f32⟩
  | .hbm, ⟨85, _⟩ => ⟨S200000x128, .f32⟩
  | .hbm, ⟨86, _⟩ => ⟨S200000x128, .f32⟩
  | .hbm, ⟨87, _⟩ => ⟨S200000x128, .f32⟩
  | .hbm, ⟨88, _⟩ => ⟨S200000x128, .f32⟩
  | _, _ => ⟨S200000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call0_cst : Ref sig .tc := ⟨.hbm, 19, rfl⟩
abbrev main_call0_v0 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call1_cst : Ref sig .tc := ⟨.hbm, 43, rfl⟩
abbrev main_call1_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_1 : Ref sig .tc := ⟨.hbm, 65, rfl⟩
abbrev main_v45 : Ref sig .tc := ⟨.hbm, 66, rfl⟩
abbrev main_v46 : Ref sig .tc := ⟨.hbm, 67, rfl⟩
abbrev main_cst_2 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_3 : Ref sig .tc := ⟨.hbm, 74, rfl⟩
abbrev main_v52 : Ref sig .tc := ⟨.hbm, 75, rfl⟩
abbrev main_v53 : Ref sig .tc := ⟨.hbm, 76, rfl⟩
abbrev main_cst_4 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_5 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]

class Facts₀ : Prop where
  concatenates_S200000x128_S200000x16_S200000x144_d1 : Shape.Concatenates [S200000x128, S200000x16] S200000x144 1
  transposes_S128x144_S144x128_1_0 : S128x144.Transposes [1, 0] S144x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  transposes_S128x128_S128x128_1_0 : S128x128.Transposes [1, 0] S128x128
  transposes_S384x128_S128x384_1_0 : S384x128.Transposes [1, 0] S128x384
  bcast_S384_S1x384_1 : S384.BroadcastsInDim S1x384 (![1] : Fin 1 → Fin S1x384.rank)
  bcast_S1x384_S200000x384_0_1 : S1x384.BroadcastsInDim S200000x384 (![0, 1] : Fin 2 → Fin S200000x384.rank)
  slices_S200000x384_S200000x128_0_0 : S200000x384.Slices ![0, 0] S200000x128
  slices_S200000x384_S200000x128_0_128 : S200000x384.Slices ![0, 128] S200000x128
  slices_S200000x384_S200000x128_0_256 : S200000x384.Slices ![0, 256] S200000x128
  dot_S200000x144_S144x128_S200000x128_1_0_0_1_n_n_wf : DotDims.WF S200000x144 S144x128 S200000x128 [1] [0] [0] [1] [] []
  gather_S200000x128_S1600000x1_S1600000x128_1_0_n_n_0_1_1128_wf : GatherDims.WF S200000x128 S1600000x1 S1600000x128 [1] [0] [] [0] [] 1 ![1, 128]
  scatter_S200000x128_S1600000x1_S1600000x128_1_0_0_1_wf : ScatterDims.WF S200000x128 S1600000x1 S1600000x128 [1] [0] [0] 1
  dot_S200000x128_S128x128_S200000x128_1_0_0_1_n_n_wf : DotDims.WF S200000x128 S128x128 S200000x128 [1] [0] [0] [1] [] []
  dot_S200000x128_S128x384_S200000x384_1_0_0_1_n_n_wf : DotDims.WF S200000x128 S128x384 S200000x384 [1] [0] [0] [1] [] []

variable [Facts₀]

def dot_S200000x144_S144x128_S200000x128_1_0_0_1_n_n : DotDims S200000x144 S144x128 S200000x128 where
  lhsContracting := [1]
  rhsContracting := [0]
  lhsNonContracting := [0]
  rhsNonContracting := [1]
  lhsBatch := []
  rhsBatch := []
  wf := dot_S200000x144_S144x128_S200000x128_1_0_0_1_n_n_wf
def gather_S200000x128_S1600000x1_S1600000x128_1_0_n_n_0_1_1128 : GatherDims S200000x128 S1600000x1 S1600000x128 where
  offsetDims := [1]
  collapsedSliceDims := [0]
  operandBatchingDims := []
  startIndicesBatchingDims := []
  startIndexMap := [0]
  indexVectorDim := 1
  sliceSizes := ![1, 128]
  wf := gather_S200000x128_S1600000x1_S1600000x128_1_0_n_n_0_1_1128_wf
def scatter_S200000x128_S1600000x1_S1600000x128_1_0_0_1 : ScatterDims S200000x128 S1600000x1 S1600000x128 where
  updateWindowDims := [1]
  insertedWindowDims := [0]
  scatterDimsToOperandDims := [0]
  indexVectorDim := 1
  wf := scatter_S200000x128_S1600000x1_S1600000x128_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S200000x128_S128x384_S200000x384_1_0_0_1_n_n : DotDims S200000x128 S128x384 S200000x384 where
  lhsContracting := [1]
  rhsContracting := [0]
  lhsNonContracting := [0]
  rhsNonContracting := [1]
  lhsBatch := []
  rhsBatch := []
  wf := dot_S200000x128_S128x384_S200000x384_1_0_0_1_n_n_wf

class Facts : Prop extends Facts₀ where

variable [Facts]
-- ==== Proof.Spec.lean ====
/-
  The mathematics of the edge layer, stated once, row by row, over plain functions on finite index types.

  An edge's new message is computed in three stages.
  * Edge-linear: the row `h` of the old messages (128 entries) and the row `e` of the edge features (16 entries)
    go through one linear layer whose weight matrix is split by columns into `Wm` (the first 128 columns) and
    `We` (the last 16), then a bias and a rectifier: `msgRow`.
  * Aggregation over the sparse adjacency (a gather, a scaling and a scatter-add): it mixes rows, it is spelt
    identically by both programs, and it is carried elsewhere as one function of the stage-one array.
  * Pass-linear and the gated recurrent cell: the aggregated row `a` goes through a linear layer and a rectifier
    (`passRow`), then the cell's input gates (`gateI`) meet the hidden gates of the old row `h` (`gateH`) in two
    logistic gates and a hyperbolic tangent: `gruRow`.
  Every stage-one and stage-three output row depends on the SAME row of its inputs and on the whole weight
  matrices. That is why a program that cuts the edge axis into blocks and one that treats the whole array at once
  compute the same array.

  The one law that is not a re-spelling: a sum over the 144 columns of the concatenated row is the sum over the
  first 128 plus the sum over the last 16 (`sum_split`). It holds in any commutative additive monoid, so on the
  extended reals it needs no finiteness.
-/
import Idealize.ShloMosaic.PureOps.Ideal

noncomputable section

namespace Cert.EdgeGru

open Idealize.ShloMosaic

/-- The rectifier against the literal `+0.0`. -/
def relu (x : EReal) : EReal := max x (Ideal.ofBits .f32 0x00000000#32)

/-- Stage one at one edge: the rectified affine image of the edge's old message row `h` and feature row `e`. -/
def msgRow (h : Fin 128 → EReal) (e : Fin 16 → EReal) (Wm : Fin 128 → Fin 128 → EReal) (We : Fin 128 → Fin 16 → EReal)
    (b : Fin 128 → EReal) (q : Fin 128) : EReal :=
  relu ((∑ k : Fin 128, h k * Wm q k) + (∑ k : Fin 16, e k * We q k) + b q)

/-- The pass-linear layer at one edge: the rectified affine image of the aggregated row `a`. -/
def passRow (a : Fin 128 → EReal) (W2 : Fin 128 → Fin 128 → EReal) (b2 : Fin 128 → EReal) (k : Fin 128) : EReal :=
  relu ((∑ j : Fin 128, a j * W2 k j) + b2 k)

/-- The cell's three stacked input gates (384 = 3 · 128 pre-activations) of the pass-linear row. -/
def gateI (a : Fin 128 → EReal) (W2 : Fin 128 → Fin 128 → EReal) (b2 : Fin 128 → EReal)
    (Wih : Fin 384 → Fin 128 → EReal) (bih : Fin 384 → EReal) (g : Fin 384) : EReal :=
  (∑ k : Fin 128, passRow a W2 b2 k * Wih g k) + bih g

/-- The cell's three stacked hidden gates of the old message row. -/
def gateH (h : Fin 128 → EReal) (Whh : Fin 384 → Fin 128 → EReal) (bhh : Fin 384 → EReal) (g : Fin 384) : EReal :=
  (∑ k : Fin 128, h k * Whh g k) + bhh g

/-- Entry `q` of the reset block, of the update block and of the candidate block of a stacked gate vector. -/
def lo (q : Fin 128) : Fin 384 := ⟨q.val, by have := q.isLt; omega⟩
def mid (q : Fin 128) : Fin 384 := ⟨128 + q.val, by have := q.isLt; omega⟩
def hi (q : Fin 128) : Fin 384 := ⟨256 + q.val, by have := q.isLt; omega⟩

/-- The gated recurrent cell at one edge: reset gate `r`, update gate `z`, candidate `n`, and the convex
    mixture `(1 - z) · n + z · h` with the literal `1.0`. -/
def gruRow (a h : Fin 128 → EReal) (W2 : Fin 128 → Fin 128 → EReal) (b2 : Fin 128 → EReal)
    (Wih Whh : Fin 384 → Fin 128 → EReal) (bih bhh : Fin 384 → EReal) (q : Fin 128) : EReal :=
  (Ideal.ofBits .f32 0x3F800000#32 - Ideal.logistic (gateI a W2 b2 Wih bih (mid q) + gateH h Whh bhh (mid q)))
      * Ideal.tanh (gateI a W2 b2 Wih bih (hi q)
          + Ideal.logistic (gateI a W2 b2 Wih bih (lo q) + gateH h Whh bhh (lo q)) * gateH h Whh bhh (hi q))
    + Ideal.logistic (gateI a W2 b2 Wih bih (mid q) + gateH h Whh bhh (mid q)) * h q

/-- A sum over 144 = 128 + 16 indices is the sum over the first 128 plus the sum over the last 16. -/
theorem sum_split (f : Fin 144 → EReal) :
    ∑ k : Fin 144, f k = (∑ k : Fin 128, f (Fin.castAdd 16 k)) + ∑ k : Fin 16, f (Fin.natAdd 128 k) :=
  Fin.sum_univ_add (a := 128) (b := 16) f

end Cert.EdgeGru

end
-- ==== Proof.RunEnds.lean ====
/-
  The run of the whole program with its result NAMED.

  The program is four stretches in order: a host stretch (the two column slices of the weight matrix, the bias as a
  row), the first kernel over its 40 grid points, a host stretch (the sparse aggregation of the first kernel's
  output, three more bias rows), and the second kernel over its 100 grid points. The contents of every buffer at
  each boundary are a fold through those stretches from the launch memory; after the last one every buffer visible
  outside the kernels holds the fold's last stage `W4`. Read at the result buffer that is the second kernel's output
  array; read at an argument it is the launch contents, since nothing writes an argument.
  So: every weakly fair execution terminates, nothing faults, the result buffer ends at `W4`'s value there and the
  thirteen arguments end unchanged.
-/
import proofs.«102535_j48962627174424_1_alg».proof.Proof.Gen.KernelIdeal.Frame
import proofs.«102535_j48962627174424_1_alg».proof.Proof.Spec
import Idealize.ShloMosaic.Lib.Pipeline.Value
import Idealize.ShloMosaic.Lib.ValueIdx
import Idealize.ShloMosaic.Lib.Tactic
set_option maxRecDepth 16384

noncomputable section

namespace Cert.EdgeGru.Run

open Idealize.ShloMosaic Idealize.ShloMosaic.TcCoe Idealize.SL.Sem
open Idealize.ShloMosaic.Pipeline (Dat Cfg Window)
open Cert.KernelIdeal Cert.KernelIdeal.Gen ValueIdx Cert.EdgeGru
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every execution ends with the result buffer at the last boundary's contents and the arguments as launched. -/
theorem run_ends : θ_run defs (onTc (τ := τ) (main (F := F))) ⟨m, fun _ => 0, ρ⟩ (fun r => ∀ c : Dev nD,
      r.2.mem ((c.tc : Thread nD τ).loc main_v20) = W4 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v20 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.EdgeGru.Run

end
-- ==== Proof.BlockEdge.lean ====
/-
  The first kernel (edge-linear + rectifier), from blocks to the whole array.

  The kernel walks the edge axis in 40 blocks of 5000 rows. At point `t` it loads block `t` of the old messages
  and of the edge features, the whole of the two column blocks of the weight matrix and of the bias row, and
  writes block `t` of its output. Because an output row depends only on the SAME row of the two edge-indexed
  inputs (Spec's `msgRow`), what point `t` writes is exactly block `t` of one whole-array function, `edgeArr`;
  the 40 blocks tile the 200000 rows, so the output array ends as that function.
  Everything is stated at the contents `V` the kernel is entered with, whatever they are, and takes the body's
  value read at an index as a hypothesis (it is proved beside this module from the body's operations alone).
-/
import proofs.«102535_j48962627174424_1_alg».proof.Proof.Gen.KernelIdeal.Frame
import proofs.«102535_j48962627174424_1_alg».proof.Proof.Spec
import Idealize.ShloMosaic.Lib.Pipeline.Value
import Idealize.ShloMosaic.Lib.ValueIdx

set_option maxRecDepth 16384

noncomputable section

namespace Cert.EdgeGru.Edge

open Idealize.ShloMosaic Idealize.ShloMosaic.TcCoe Idealize.SL.Sem
open Idealize.ShloMosaic.Pipeline (Dat Cfg Window)
open Cert.KernelIdeal Cert.KernelIdeal.Gen ValueIdx Cert.EdgeGru

variable (V : (c : Dev nD) → (b : Ref sig .tc) → Buf (Elt Ideal) ((c : Thread nD τ).loc b))

/-- The zero offset of a load or store that spans its whole buffer. -/
theorem hz : (![0, 0] : Fin 2 → Nat) = fun _ => 0 := funext fun a => by fin_cases a <;> rfl

/-- Stage one as ONE array: row `r` of the result is the rectified affine image of row `r` of the old messages and of
    the edge features, through the two column blocks of the weight matrix and the bias row, as the first kernel finds
    those five arrays. -/
def edgeArr (c : Dev nD) : S200000x128.Idx → Elt Ideal .f32 := fun i =>
  msgRow (fun k => V c main_arg1 (ix2 (i 0) k)) (fun k => V c main_arg0 (ix2 (i 0) k))
    (fun a k => V c main_v0 (ix2 a k)) (fun a k => V c main_v1 (ix2 a k)) (fun a => V c main_v2 (ix2 (0 : Fin 1) a)) (i 1)

/-- The first kernel's index maps over its 40 grid points: the two edge-indexed inputs and the output move one block of
    5000 rows per point; the weights and the bias stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` (5000 rows to a block) is row `5000 t + p` of the array. -/
def rowOf (t : Fin cfg0.N) (p : Fin 5000) : Fin 200000 :=
  ⟨t.val * 5000 + p.val, by have ht : t.val < 40 := lt_of_lt_of_eq t.isLt N_0; have := p.isLt; omega⟩

/-- The array at a row and a column. -/
theorem edgeArr_at (c : Dev nD) (r : Fin 200000) (q : Fin 128) :
    edgeArr V c (ix2 r q) = msgRow (fun k => V c main_arg1 (ix2 r k)) (fun k => V c main_arg0 (ix2 r k))
      (fun a k => V c main_v0 (ix2 a k)) (fun a k => V c main_v1 (ix2 a k)) (fun a => V c main_v2 (ix2 (0 : Fin 1) a)) q := rfl

/-- Entry `(p, q)` of the output's block `t` is entry `(5000 t + p, q)` of the array. -/
theorem emb5 (t : Fin cfg0.N) (p : Fin 5000) (q : Fin 128) :
    ((cfg0.win 5).blk t).view.emb (ix2 p q) = ix2 (rowOf t p) q := by
  obtain ⟨e00, e01, e10, e11, e20, e21, e30, e31, e40, e41, e50, e51⟩ := idx_facts t
  funext a; apply Fin.ext
  match a with
  | ⟨0, _⟩ => show win0_5.index t (0 : Fin 2) * 5000 + 1 * p.val = t.val * 5000 + p.val; omega
  | ⟨1, _⟩ => show win0_5.index t (1 : Fin 2) * 128 + 1 * q.val = q.val; omega

/-- The old-message block at point `t`, read where the output's rows lie. -/
theorem blk0 (c : Dev nD) (t : Fin cfg0.N) (p : Fin 5000) (k : Fin 128) :
    iblk0 V c 0 t (ix2 p k) = V c main_arg1 (ix2 (rowOf t p) k) := by
  show V c main_arg1 (((cfg0.win 0).blk t).view.emb (ix2 p k)) = _
  refine congrArg (V c main_arg1) ?_
  obtain ⟨e00, e01, e10, e11, e20, e21, e30, e31, e40, e41, e50, e51⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- The edge-feature block at point `t`, read where the output's rows lie. -/
theorem blk1 (c : Dev nD) (t : Fin cfg0.N) (p : Fin 5000) (k : Fin 16) :
    iblk0 V c 1 t (ix2 p k) = V c main_arg0 (ix2 (rowOf t p) k) := by
  show V c main_arg0 (((cfg0.win 1).blk t).view.emb (ix2 p k)) = _
  refine congrArg (V c main_arg0) ?_
  obtain ⟨e00, e01, e10, e11, e20, e21, e30, e31, e40, e41, e50, e51⟩ := idx_facts t
  funext a; apply Fin.ext
  match a with
  | ⟨0, _⟩ => show win0_1.index t (0 : Fin 2) * 5000 + 1 * p.val = t.val * 5000 + p.val; omega
  | ⟨1, _⟩ => show win0_1.index t (1 : Fin 2) * 16 + 1 * k.val = k.val; omega

/-- The first 128 columns of the weights: one block, the whole array, at every point. -/
theorem blk2 (c : Dev nD) (t : Fin cfg0.N) (a : Fin 128) (k : Fin 128) :
    iblk0 V c 2 t (ix2 a k) = V c main_v0 (ix2 a k) := by
  show V c main_v0 (((cfg0.win 2).blk t).view.emb (ix2 a k)) = _
  refine congrArg (V c main_v0) ?_
  obtain ⟨e00, e01, e10, e11, e20, e21, e30, e31, e40, e41, e50, e51⟩ := idx_facts t
  funext d; apply Fin.ext
  match d with
  | ⟨0, _⟩ => show win0_2.index t (0 : Fin 2) * 128 + 1 * a.val = a.val; omega
  | ⟨1, _⟩ => show win0_2.index t (1 : Fin 2) * 128 + 1 * k.val = k.val; omega

/-- The last 16 columns of the weights: one block, the whole array, at every point. -/
theorem blk3 (c : Dev nD) (t : Fin cfg0.N) (a : Fin 128) (k : Fin 16) :
    iblk0 V c 3 t (ix2 a k) = V c main_v1 (ix2 a k) := by
  show V c main_v1 (((cfg0.win 3).blk t).view.emb (ix2 a k)) = _
  refine congrArg (V c main_v1) ?_
  obtain ⟨e00, e01, e10, e11, e20, e21, e30, e31, e40, e41, e50, e51⟩ := idx_facts t
  funext d; apply Fin.ext
  match d with
  | ⟨0, _⟩ => show win0_3.index t (0 : Fin 2) * 128 + 1 * a.val = a.val; omega
  | ⟨1, _⟩ => show win0_3.index t (1 : Fin 2) * 16 + 1 * k.val = k.val; omega

/-- The bias row: one block, the whole array, at every point. -/
theorem blk4 (c : Dev nD) (t : Fin cfg0.N) (z : Fin 1) (a : Fin 128) :
    iblk0 V c 4 t (ix2 z a) = V c main_v2 (ix2 z a) := by
  show V c main_v2 (((cfg0.win 4).blk t).view.emb (ix2 z a)) = _
  refine congrArg (V c main_v2) ?_
  obtain ⟨e00, e01, e10, e11, e20, e21, e30, e31, e40, e41, e50, e51⟩ := idx_facts t
  funext d; apply Fin.ext
  match d with
  | ⟨0, _⟩ => show win0_4.index t (0 : Fin 2) * 1 + 1 * z.val = z.val; omega
  | ⟨1, _⟩ => show win0_4.index t (1 : Fin 2) * 128 + 1 * a.val = a.val; omega

/-- What point `t` writes back is block `t` of the stage-one array: the body's value at `(p, q)` is the row function of
    the loaded blocks' row `p`, and row `p` of every edge-indexed block is row `5000 t + p` of its array. -/
theorem edge_flushed
    (hpay : ∀ (v0 : Vec Ideal S5000x128 .f32) (v2 : Vec Ideal S128x128 .f32) (v7 : Vec Ideal S5000x16 .f32) (v9 : Vec Ideal S128x16 .f32)
      (v15 : Vec Ideal S1x128 .f32) (p : Fin 5000) (q : Fin 128), k0_pay1 (F := Ideal) v0 v2 v7 v9 v15 (ix2 p q)
        = msgRow (fun k => v0 (ix2 p k)) (fun k => v7 (ix2 p k)) (fun a k => v2 (ix2 a k)) (fun a k => v9 (ix2 a k)) (fun a => v15 (ix2 (0 : Fin 1) a)) q)
    (c : Dev nD) (t : Fin cfg0.N) :
    (dat0 V c).flushed 5 t = ((cfg0.win 5).blk t).view.read (Elt Ideal) (edgeArr V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S5000x16) hz,
    View.ld_unit_zero (S := S128x16) hz, View.ld_unit_zero (S := S1x128) hz]
  funext j
  show k0_pay1 (iblk0 V c 0 t) (iblk0 V c 2 t) (iblk0 V c 1 t) (iblk0 V c 3 t) (iblk0 V c 4 t) j = edgeArr V c (((cfg0.win 5).blk t).view.emb j)
  obtain ⟨p, q, rfl⟩ : ∃ (p : Fin 5000) (q : Fin 128), j = ix2 p q := ⟨j 0, j 1, eq_ix2 j⟩
  rw [emb5, edgeArr_at]
  refine (hpay (iblk0 V c 0 t) (iblk0 V c 2 t) (iblk0 V c 1 t) (iblk0 V c 3 t) (iblk0 V c 4 t) p q).trans ?_
  simp only [blk0, blk1, blk2, blk3, blk4]

/-- An index of the array lies in block `t` iff each coordinate lies in the block's range on its axis. -/
theorem mem_blk5 (t : Fin cfg0.N) (i : S200000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v3).slice (win0_5.rect t)).set ↔ _
  rw [View.set_slice_whole, Rect.mem_set_unit]
  exact Iff.rfl

/-- Every index is covered: row `r` lies in block `r / 5000`. -/
theorem edge_cover (i : S200000x128.Idx) :
    ∃ t : Fin cfg0.N, (cfg0.win 5).flush t = true ∧ i ∈ ((cfg0.win 5).blk t).view.set := by
  have hi0 : (i 0).val < 200000 := (i 0).isLt
  have hi1 : (i 1).val < 128 := (i 1).isLt
  have hN : cfg0.N = 40 := N_0
  refine ⟨⟨(i 0).val / 5000, by rw [hN]; omega⟩, flush0_5 _, ?_⟩
  rw [mem_blk5]
  obtain ⟨e00, e01, e10, e11, e20, e21, e30, e31, e40, e41, e50, e51⟩ := idx_facts ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [e50]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e51]; omega

/-- After the first kernel's 40 points its output array IS the stage-one array of the arrays it was entered with. -/
theorem edge_final
    (hpay : ∀ (v0 : Vec Ideal S5000x128 .f32) (v2 : Vec Ideal S128x128 .f32) (v7 : Vec Ideal S5000x16 .f32) (v9 : Vec Ideal S128x16 .f32)
      (v15 : Vec Ideal S1x128 .f32) (p : Fin 5000) (q : Fin 128), k0_pay1 (F := Ideal) v0 v2 v7 v9 v15 (ix2 p q)
        = msgRow (fun k => v0 (ix2 p k)) (fun k => v7 (ix2 p k)) (fun a k => v2 (ix2 a k)) (fun a k => v9 (ix2 a k)) (fun a => v15 (ix2 (0 : Fin 1) a)) q)
    (c : Dev nD) : (dat0 V c).arrAt 5 cfg0.N = edgeArr V c :=
  (dat0 V c).arrAt_eq_of_cover 5 (edgeArr V c) (fun t _ => edge_flushed V hpay c t) edge_cover

end Cert.EdgeGru.Edge

end
-- ==== Proof.BlockGru.lean ====
/-
  The second kernel (pass-linear + rectifier + gated recurrent cell), from blocks to the whole array.

  The kernel walks the edge axis in 100 blocks of 2000 rows. At point `t` it loads block `t` of the aggregated
  messages and of the old messages, the whole of the three weight matrices and of the three bias rows, and writes
  block `t` of its output. An output row depends only on the SAME row of the two edge-indexed inputs (Spec's
  `gruRow`), so what point `t` writes is block `t` of one whole-array function, `gruArr`; the 100 blocks tile
  the 200000 rows, so the output array ends as that function.
  Stated at the contents `V` the kernel is entered with, whatever they are, with the body's value read at an
  index as a hypothesis (proved beside this module from the body's operations alone).
-/
import proofs.«102535_j48962627174424_1_alg».proof.Proof.Gen.KernelIdeal.Frame
import proofs.«102535_j48962627174424_1_alg».proof.Proof.Spec
import Idealize.ShloMosaic.Lib.Pipeline.Value
import Idealize.ShloMosaic.Lib.ValueIdx

set_option maxRecDepth 16384

noncomputable section

namespace Cert.EdgeGru.Gru

open Idealize.ShloMosaic Idealize.ShloMosaic.TcCoe Idealize.SL.Sem
open Idealize.ShloMosaic.Pipeline (Dat Cfg Window)
open Cert.KernelIdeal Cert.KernelIdeal.Gen ValueIdx Cert.EdgeGru

variable (V : (c : Dev nD) → (b : Ref sig .tc) → Buf (Elt Ideal) ((c : Thread nD τ).loc b))

/-- The zero offset of a load or store that spans its whole buffer. -/
theorem hz1 : (![0, 0] : Fin 2 → Nat) = fun _ => 0 := funext fun a => by fin_cases a <;> rfl

/-- Stage three as ONE array: row `r` of the result is the gated recurrent cell of row `r` of the aggregated messages and
    of the old messages, through the pass-linear and the cell's weights and bias rows, as the second kernel finds those
    eight arrays. -/
def gruArr (c : Dev nD) : S200000x128.Idx → Elt Ideal .f32 := fun i =>
  gruRow (fun k => V c main_v16 (ix2 (i 0) k)) (fun k => V c main_arg1 (ix2 (i 0) k)) (fun a b => V c main_arg7 (ix2 a b))
    (fun k => V c main_v17 (ix2 (0 : Fin 1) k)) (fun g k => V c main_arg9 (ix2 g k)) (fun g k => V c main_arg10 (ix2 g k))
    (fun g => V c main_v18 (ix2 (0 : Fin 1) g)) (fun g => V c main_v19 (ix2 (0 : Fin 1) g)) (i 1)

/-- The array at a row and a column. -/
theorem gruArr_at (c : Dev nD) (r : Fin 200000) (q : Fin 128) :
    gruArr V c (ix2 r q) = gruRow (fun k => V c main_v16 (ix2 r k)) (fun k => V c main_arg1 (ix2 r k)) (fun a b => V c main_arg7 (ix2 a b))
      (fun k => V c main_v17 (ix2 (0 : Fin 1) k)) (fun g k => V c main_arg9 (ix2 g k)) (fun g k => V c main_arg10 (ix2 g k))
      (fun g => V c main_v18 (ix2 (0 : Fin 1) g)) (fun g => V c main_v19 (ix2 (0 : Fin 1) g)) q := rfl

/-- The second kernel's index maps over its 100 grid points: the two edge-indexed inputs and the output move one block
    of 2000 rows per point; the weights and the bias rows stay at block zero. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Row `p` of block `t` (2000 rows to a block) is row `2000 t + p` of the array. -/
def rowOf1 (t : Fin cfg1.N) (p : Fin 2000) : Fin 200000 :=
  ⟨t.val * 2000 + p.val, by have ht : t.val < 100 := lt_of_lt_of_eq t.isLt N_1; have := p.isLt; omega⟩

/-- Entry `(p, q)` of the output's block `t` is entry `(2000 t + p, q)` of the array. -/
theorem emb8 (t : Fin cfg1.N) (p : Fin 2000) (q : Fin 128) :
    ((cfg1.win 8).blk t).view.emb (ix2 p q) = ix2 (rowOf1 t p) q := by
  obtain ⟨g00, g01, g10, g11, g20, g21, g30, g31, g40, g41, g50, g51, g60, g61, g70, g71, g80, g81⟩ := idx_facts1 t
  funext a; apply Fin.ext
  match a with
  | ⟨0, _⟩ => show win1_8.index t (0 : Fin 2) * 2000 + 1 * p.val = t.val * 2000 + p.val; omega
  | ⟨1, _⟩ => show win1_8.index t (1 : Fin 2) * 128 + 1 * q.val = q.val; omega

/-- Window 0's block at point `t`, read in its array where the output's rows lie. -/
theorem gblk0 (c : Dev nD) (t : Fin cfg1.N) (p : Fin 2000) (k : Fin 128) :
    iblk1 V c 0 t (ix2 p k) = V c main_v16 (ix2 (rowOf1 t p) k) := by
  show V c main_v16 (((cfg1.win 0).blk t).view.emb (ix2 p k)) = _
  refine congrArg (V c main_v16) ?_
  obtain ⟨g00, g01, g10, g11, g20, g21, g30, g31, g40, g41, g50, g51, g60, g61, g70, g71, g80, g81⟩ := idx_facts1 t
  funext a; apply Fin.ext
  match a with
  | ⟨0, _⟩ => show win1_0.index t (0 : Fin 2) * 2000 + 1 * p.val = t.val * 2000 + p.val; omega
  | ⟨1, _⟩ => show win1_0.index t (1 : Fin 2) * 128 + 1 * k.val = k.val; omega

/-- Window 1's block at point `t`, read in its array where the output's rows lie. -/
theorem gblk1 (c : Dev nD) (t : Fin cfg1.N) (p : Fin 2000) (k : Fin 128) :
    iblk1 V c 1 t (ix2 p k) = V c main_arg1 (ix2 (rowOf1 t p) k) := by
  show V c main_arg1 (((cfg1.win 1).blk t).view.emb (ix2 p k)) = _
  refine congrArg (V c main_arg1) ?_
  obtain ⟨g00, g01, g10, g11, g20, g21, g30, g31, g40, g41, g50, g51, g60, g61, g70, g71, g80, g81⟩ := idx_facts1 t
  funext a; apply Fin.ext
  match a with
  | ⟨0, _⟩ => show win1_1.index t (0 : Fin 2) * 2000 + 1 * p.val = t.val * 2000 + p.val; omega
  | ⟨1, _⟩ => show win1_1.index t (1 : Fin 2) * 128 + 1 * k.val = k.val; omega

/-- Window 2's block at point `t`, read in its array: one block, the whole array, at every point. -/
theorem gblk2 (c : Dev nD) (t : Fin cfg1.N) (a : Fin 128) (k : Fin 128) :
    iblk1 V c 2 t (ix2 a k) = V c main_arg7 (ix2 a k) := by
  show V c main_arg7 (((cfg1.win 2).blk t).view.emb (ix2 a k)) = _
  refine congrArg (V c main_arg7) ?_
  obtain ⟨g00, g01, g10, g11, g20, g21, g30, g31, g40, g41, g50, g51, g60, g61, g70, g71, g80, g81⟩ := idx_facts1 t
  funext d; apply Fin.ext
  match d with
  | ⟨0, _⟩ => show win1_2.index t (0 : Fin 2) * 128 + 1 * a.val = a.val; omega
  | ⟨1, _⟩ => show win1_2.index t (1 : Fin 2) * 128 + 1 * k.val = k.val; omega

/-- Window 3's block at point `t`, read in its array: one block, the whole array, at every point. -/
theorem gblk3 (c : Dev nD) (t : Fin cfg1.N) (a : Fin 1) (k : Fin 128) :
    iblk1 V c 3 t (ix2 a k) = V c main_v17 (ix2 a k) := by
  show V c main_v17 (((cfg1.win 3).blk t).view.emb (ix2 a k)) = _
  refine congrArg (V c main_v17) ?_
  obtain ⟨g00, g01, g10, g11, g20, g21, g30, g31, g40, g41, g50, g51, g60, g61, g70, g71, g80, g81⟩ := idx_facts1 t
  funext d; apply Fin.ext
  match d with
  | ⟨0, _⟩ => show win1_3.index t (0 : Fin 2) * 1 + 1 * a.val = a.val; omega
  | ⟨1, _⟩ => show win1_3.index t (1 : Fin 2) * 128 + 1 * k.val = k.val; omega

/-- Window 4's block at point `t`, read in its array: one block, the whole array, at every point. -/
theorem gblk4 (c : Dev nD) (t : Fin cfg1.N) (a : Fin 384) (k : Fin 128) :
    iblk1 V c 4 t (ix2 a k) = V c main_arg9 (ix2 a k) := by
  show V c main_arg9 (((cfg1.win 4).blk t).view.emb (ix2 a k)) = _
  refine congrArg (V c main_arg9) ?_
  obtain ⟨g00, g01, g10, g11, g20, g21, g30, g31, g40, g41, g50, g51, g60, g61, g70, g71, g80, g81⟩ := idx_facts1 t
  funext d; apply Fin.ext
  match d with
  | ⟨0, _⟩ => show win1_4.index t (0 : Fin 2) * 384 + 1 * a.val = a.val; omega
  | ⟨1, _⟩ => show win1_4.index t (1 : Fin 2) * 128 + 1 * k.val = k.val; omega

/-- Window 5's block at point `t`, read in its array: one block, the whole array, at every point. -/
theorem gblk5 (c : Dev nD) (t : Fin cfg1.N) (a : Fin 384) (k : Fin 128) :
    iblk1 V c 5 t (ix2 a k) = V c main_arg10 (ix2 a k) := by
  show V c main_arg10 (((cfg1.win 5).blk t).view.emb (ix2 a k)) = _
  refine congrArg (V c main_arg10) ?_
  obtain ⟨g00, g01, g10, g11, g20, g21, g30, g31, g40, g41, g50, g51, g60, g61, g70, g71, g80, g81⟩ := idx_facts1 t
  funext d; apply Fin.ext
  match d with
  | ⟨0, _⟩ => show win1_5.index t (0 : Fin 2) * 384 + 1 * a.val = a.val; omega
  | ⟨1, _⟩ => show win1_5.index t (1 : Fin 2) * 128 + 1 * k.val = k.val; omega

/-- Window 6's block at point `t`, read in its array: one block, the whole array, at every point. -/
theorem gblk6 (c : Dev nD) (t : Fin cfg1.N) (a : Fin 1) (k : Fin 384) :
    iblk1 V c 6 t (ix2 a k) = V c main_v18 (ix2 a k) := by
  show V c main_v18 (((cfg1.win 6).blk t).view.emb (ix2 a k)) = _
  refine congrArg (V c main_v18) ?_
  obtain ⟨g00, g01, g10, g11, g20, g21, g30, g31, g40, g41, g50, g51, g60, g61, g70, g71, g80, g81⟩ := idx_facts1 t
  funext d; apply Fin.ext
  match d with
  | ⟨0, _⟩ => show win1_6.index t (0 : Fin 2) * 1 + 1 * a.val = a.val; omega
  | ⟨1, _⟩ => show win1_6.index t (1 : Fin 2) * 384 + 1 * k.val = k.val; omega

/-- Window 7's block at point `t`, read in its array: one block, the whole array, at every point. -/
theorem gblk7 (c : Dev nD) (t : Fin cfg1.N) (a : Fin 1) (k : Fin 384) :
    iblk1 V c 7 t (ix2 a k) = V c main_v19 (ix2 a k) := by
  show V c main_v19 (((cfg1.win 7).blk t).view.emb (ix2 a k)) = _
  refine congrArg (V c main_v19) ?_
  obtain ⟨g00, g01, g10, g11, g20, g21, g30, g31, g40, g41, g50, g51, g60, g61, g70, g71, g80, g81⟩ := idx_facts1 t
  funext d; apply Fin.ext
  match d with
  | ⟨0, _⟩ => show win1_7.index t (0 : Fin 2) * 1 + 1 * a.val = a.val; omega
  | ⟨1, _⟩ => show win1_7.index t (1 : Fin 2) * 384 + 1 * k.val = k.val; omega

/-- What point `t` writes back is block `t` of the stage-three array: the body's value at `(p, q)` is the cell's row
    function of the loaded blocks' row `p`, and row `p` of every edge-indexed block is row `2000 t + p` of its array. -/
theorem gru_flushed
    (hpay : ∀ (v0 v2 : Vec Ideal S2000x128 .f32) (v4 : Vec Ideal S128x128 .f32) (v8 : Vec Ideal S1x128 .f32) (v15 v24 : Vec Ideal S384x128 .f32)
      (v19 v28 : Vec Ideal S1x384 .f32) (p : Fin 2000) (q : Fin 128),
      k1_pay1 (F := Ideal) v2 (k1_pay4 v0 v4 v8 v15 v19) (k1_pay5 v0 v4 v8 v15 v19) (k1_pay6 v2 v24 v28) (k1_pay7 v2 v24 v28) (k1_pay8 v0 v2 v4 v8 v15 v19 v24 v28) (ix2 p q)
        = gruRow (fun k => v0 (ix2 p k)) (fun k => v2 (ix2 p k)) (fun a b => v4 (ix2 a b)) (fun k => v8 (ix2 (0 : Fin 1) k)) (fun g k => v15 (ix2 g k))
            (fun g k => v24 (ix2 g k)) (fun g => v19 (ix2 (0 : Fin 1) g)) (fun g => v28 (ix2 (0 : Fin 1) g)) q)
    (c : Dev nD) (t : Fin cfg1.N) :
    (dat1 V c).flushed 8 t = ((cfg1.win 8).blk t).view.read (Elt Ideal) (gruArr V c) := by
  show (cfg1.win 8).cut (grid1.coords t) ((dat1 V c).after 8 t) = _
  rw [after1_8]
  unfold out1_8
  rw [View.canon_unit_zero hz1]
  simp only [View.ld_unit_zero (S := S2000x128) hz1, View.ld_unit_zero (S := S128x128) hz1, View.ld_unit_zero (S := S1x128) hz1,
    View.ld_unit_zero (S := S384x128) hz1, View.ld_unit_zero (S := S1x384) hz1]
  funext j
  show k1_pay1 (iblk1 V c 1 t) (k1_pay4 (iblk1 V c 0 t) (iblk1 V c 2 t) (iblk1 V c 3 t) (iblk1 V c 4 t) (iblk1 V c 6 t))
      (k1_pay5 (iblk1 V c 0 t) (iblk1 V c 2 t) (iblk1 V c 3 t) (iblk1 V c 4 t) (iblk1 V c 6 t))
      (k1_pay6 (iblk1 V c 1 t) (iblk1 V c 5 t) (iblk1 V c 7 t)) (k1_pay7 (iblk1 V c 1 t) (iblk1 V c 5 t) (iblk1 V c 7 t))
      (k1_pay8 (iblk1 V c 0 t) (iblk1 V c 1 t) (iblk1 V c 2 t) (iblk1 V c 3 t) (iblk1 V c 4 t) (iblk1 V c 6 t) (iblk1 V c 5 t) (iblk1 V c 7 t)) j
    = gruArr V c (((cfg1.win 8).blk t).view.emb j)
  obtain ⟨p, q, rfl⟩ : ∃ (p : Fin 2000) (q : Fin 128), j = ix2 p q := ⟨j 0, j 1, eq_ix2 j⟩
  rw [emb8, gruArr_at]
  refine (hpay (iblk1 V c 0 t) (iblk1 V c 1 t) (iblk1 V c 2 t) (iblk1 V c 3 t) (iblk1 V c 4 t) (iblk1 V c 5 t) (iblk1 V c 6 t) (iblk1 V c 7 t) p q).trans ?_
  simp only [gblk0, gblk1, gblk2, gblk3, gblk4, gblk5, gblk6, gblk7]

/-- An index of the array lies in block `t` iff each coordinate lies in the block's range on its axis. -/
theorem mem_blk8 (t : Fin cfg1.N) (i : S200000x128.Idx) :
    i ∈ ((cfg1.win 8).blk t).view.set ↔ ∀ a : Fin 2, win1_8.index t a * S2000x128.size a ≤ (i a).val ∧ (i a).val < win1_8.index t a * S2000x128.size a + S2000x128.size a := by
  show i ∈ ((View.whole main_v20).slice (win1_8.rect t)).set ↔ _
  rw [View.set_slice_whole, Rect.mem_set_unit]
  exact Iff.rfl

/-- Every index is covered: row `r` lies in block `r / 2000`. -/
theorem gru_cover (i : S200000x128.Idx) :
    ∃ t : Fin cfg1.N, (cfg1.win 8).flush t = true ∧ i ∈ ((cfg1.win 8).blk t).view.set := by
  have hi0 : (i 0).val < 200000 := (i 0).isLt
  have hi1 : (i 1).val < 128 := (i 1).isLt
  have hN : cfg1.N = 100 := N_1
  refine ⟨⟨(i 0).val / 2000, by rw [hN]; omega⟩, flush1_8 _, ?_⟩
  rw [mem_blk8]
  obtain ⟨g00, g01, g10, g11, g20, g21, g30, g31, g40, g41, g50, g51, g60, g61, g70, g71, g80, g81⟩ := idx_facts1 ⟨(i 0).val / 2000, by rw [hN]; omega⟩
  intro a
  match a with
  | ⟨0, _⟩ =>
    show win1_8.index _ (0 : Fin 2) * 2000 ≤ (i 0).val ∧ (i 0).val < win1_8.index _ (0 : Fin 2) * 2000 + 2000
    rw [g80]; show (i 0).val / 2000 * 2000 ≤ (i 0).val ∧ (i 0).val < (i 0).val / 2000 * 2000 + 2000; omega
  | ⟨1, _⟩ =>
    show win1_8.index _ (1 : Fin 2) * 128 ≤ (i 1).val ∧ (i 1).val < win1_8.index _ (1 : Fin 2) * 128 + 128
    rw [g81]; omega

/-- After the second kernel's 100 points its output array IS the stage-three array of the arrays it was entered with. -/
theorem gru_final
    (hpay : ∀ (v0 v2 : Vec Ideal S2000x128 .f32) (v4 : Vec Ideal S128x128 .f32) (v8 : Vec Ideal S1x128 .f32) (v15 v24 : Vec Ideal S384x128 .f32)
      (v19 v28 : Vec Ideal S1x384 .f32) (p : Fin 2000) (q : Fin 128),
      k1_pay1 (F := Ideal) v2 (k1_pay4 v0 v4 v8 v15 v19) (k1_pay5 v0 v4 v8 v15 v19) (k1_pay6 v2 v24 v28) (k1_pay7 v2 v24 v28) (k1_pay8 v0 v2 v4 v8 v15 v19 v24 v28) (ix2 p q)
        = gruRow (fun k => v0 (ix2 p k)) (fun k => v2 (ix2 p k)) (fun a b => v4 (ix2 a b)) (fun k => v8 (ix2 (0 : Fin 1) k)) (fun g k => v15 (ix2 g k))
            (fun g k => v24 (ix2 g k)) (fun g => v19 (ix2 (0 : Fin 1) g)) (fun g => v28 (ix2 (0 : Fin 1) g)) q)
    (c : Dev nD) : (dat1 V c).arrAt 8 cfg1.N = gruArr V c :=
  (dat1 V c).arrAt_eq_of_cover 8 (gruArr V c) (fun t _ => gru_flushed V hpay c t) gru_cover

end Cert.EdgeGru.Gru

end
-- ==== Proof.KernelValue.lean ====
/-
  The kernel program's result as a function of its ARGUMENTS.

  Between the launch and the return the program's buffers pass through four stretches. This module reads the fold
  of those stretches at the few buffers that matter:
  * the first kernel is entered with the old messages and the edge features as launched, with the host's two column
    slices of the weight matrix (columns 0–127 and 128–143) and with the bias as a row; so its output, the stage-one
    array, is row by row Spec's `msgRow` of the arguments (`edge_rows`);
  * the second host stretch turns that array into the aggregated messages by the sparse aggregation chain `aggK`
    (kept as one opaque function) and reshapes three bias vectors into rows; nothing writes the arguments;
  * the second kernel is entered with those, so its output, the result, is row by row Spec's `gruRow` of the
    aggregated stage-one array and of the arguments (`gru_rows`, `W4_v20`).
  The bodies' values read at an index are hypotheses here (proved from the bodies' operations in another module).
-/
import proofs.«102535_j48962627174424_1_alg».proof.Proof.Gen.KernelIdeal.Frame
import proofs.«102535_j48962627174424_1_alg».proof.Proof.Spec
import Idealize.ShloMosaic.Lib.Pipeline.Value
import Idealize.ShloMosaic.Lib.ValueIdx
import proofs.«102535_j48962627174424_1_alg».proof.Proof.BlockEdge
import proofs.«102535_j48962627174424_1_alg».proof.Proof.BlockGru
import Idealize.ShloMosaic.Lib.Tactic
import Idealize.ShloMosaic.Lib.StableHlo.Run
import Idealize.ShloMosaic.Lib.ValueLayout
set_option maxRecDepth 16384

noncomputable section

namespace Cert.EdgeGru.KV

open Idealize.ShloMosaic Idealize.ShloMosaic.TcCoe Idealize.SL.Sem
open Idealize.ShloMosaic.Pipeline (Dat Cfg Window)
open Cert.KernelIdeal Cert.KernelIdeal.Gen ValueIdx Cert.EdgeGru
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (BodyObligation cellOf)
open Idealize.ShloMosaic.StableHlo

variable (m : (ℓ : Loc nD τ sig) → Buf (Elt Ideal) ℓ) (ρ : Dev nD → PrngReg)

/-- The sparse aggregation as the kernel's program spells it between its two kernels, as ONE function of the
    stage-one array `msg` and of the adjacency's rows, columns and values: negative column indices are wrapped by the
    row count, the indexed rows of `msg` are gathered and scaled by the values, and the scaled rows are added into a zero
    array at the adjacency's rows. It is never opened: both programs apply this same chain. -/
def aggK (msg : (⟨S200000x128, .f32⟩ : BufTy).Contents (Elt Ideal)) (rows cols : (⟨S1600000, .i32⟩ : BufTy).Contents (Elt Ideal))
    (vals : (⟨S1600000, .f32⟩ : BufTy).Contents (Elt Ideal)) : (⟨S200000x128, .f32⟩ : BufTy).Contents (Elt Ideal) :=
  Host.scatterAdd scatter_S200000x128_S1600000x1_S1600000x128_1_0_0_1
    (broadcastInDim S200000x128 ![] bcast_S_S200000x128 (constant (F := Ideal) S_ .f32 0x00000000#32))
    (broadcastInDim S1600000x1 ![0] bcast_S1600000_S1600000x1_0 rows)
    (mulf
      (Host.gather gather_S200000x128_S1600000x1_S1600000x128_1_0_n_n_0_1_1128 msg
        (broadcastInDim S1600000x1 ![0] bcast_S1600000_S1600000x1_0
          (select (cmpi CmpIPredicate.slt cols (broadcastInDim S1600000 ![] bcast_S_S1600000 (constantI S_ 32 0#32)))
            (addi cols (broadcastInDim S1600000 ![] bcast_S_S1600000 (constantI S_ 32 200000#32))) cols)))
      (broadcastInDim S1600000x128 ![0, 1] bcast_S1600000x1_S1600000x128_0_1
        (broadcastInDim S1600000x1 ![0] bcast_S1600000_S1600000x1_0 vals)))

/-! ## What the first kernel is entered with: the arguments, and the host's slices of the weights and reshape of the bias -/

/-- The edge features reach the first kernel as launched. -/
theorem V1_arg0 (c : Dev nD) : V1 m ρ c main_arg0 = m ((c.tc : Thread nD τ).loc main_arg0) := by
  show StableHlo.after hostOps0 (W0 m ρ c) (Proc.devRef .tc main_arg0) = _
  after_results
/-- The old messages reach the first kernel as launched. -/
theorem V1_arg1 (c : Dev nD) : V1 m ρ c main_arg1 = m ((c.tc : Thread nD τ).loc main_arg1) := by
  show StableHlo.after hostOps0 (W0 m ρ c) (Proc.devRef .tc main_arg1) = _
  after_results
/-- The first 128 columns of the weight matrix, sliced by the host. -/
theorem V1_v0 (c : Dev nD) : V1 m ρ c main_v0
    = extractStridedSlice S128x128 ![0, 0] (m ((c.tc : Thread nD τ).loc main_arg5)) slices_S128x144_S128x128_0_0 := by
  show StableHlo.after hostOps0 (W0 m ρ c) (Proc.devRef .tc main_v0) = _
  after_results <;> rfl
/-- The last 16 columns of the weight matrix, sliced by the host. -/
theorem V1_v1 (c : Dev nD) : V1 m ρ c main_v1
    = extractStridedSlice S128x16 ![0, 128] (m ((c.tc : Thread nD τ).loc main_arg5)) slices_S128x144_S128x16_0_128 := by
  show StableHlo.after hostOps0 (W0 m ρ c) (Proc.devRef .tc main_v1) = _
  after_results <;> rfl
/-- The bias vector as a one-row matrix. -/
theorem V1_v2 (c : Dev nD) : V1 m ρ c main_v2
    = shapeCast S1x128 (m ((c.tc : Thread nD τ).loc main_arg6)) shapeCasts_S128_S1x128 := by
  show StableHlo.after hostOps0 (W0 m ρ c) (Proc.devRef .tc main_v2) = _
  after_results <;> rfl

/-- Row by row, the stage-one array of the first kernel's entry contents is the edge-linear layer of the ARGUMENTS:
    the host's two slices of the weight matrix are its first 128 and its last 16 columns, the reshaped bias its entries. -/
theorem edge_rows (c : Dev nD) (i : S200000x128.Idx) :
    Edge.edgeArr (V1 m ρ) c i
      = msgRow (fun k => m ((c.tc : Thread nD τ).loc main_arg1) (ix2 (i 0) k)) (fun k => m ((c.tc : Thread nD τ).loc main_arg0) (ix2 (i 0) k))
          (fun a k => m ((c.tc : Thread nD τ).loc main_arg5) (ix2 a (Fin.castAdd 16 k)))
          (fun a k => m ((c.tc : Thread nD τ).loc main_arg5) (ix2 a (Fin.natAdd 128 k)))
          (fun a => m ((c.tc : Thread nD τ).loc main_arg6) (ix1 a)) (i 1) := by
  unfold Edge.edgeArr
  rw [V1_arg0, V1_arg1, V1_v0, V1_v1, V1_v2]
  have s0 : ∀ (a k : Fin 128), extractStridedSlice S128x128 ![0, 0] (m ((c.tc : Thread nD τ).loc main_arg5)) slices_S128x144_S128x128_0_0 (ix2 a k)
      = m ((c.tc : Thread nD τ).loc main_arg5) (ix2 a (Fin.castAdd 16 k)) := fun a k =>
    slice2_axis1_apply 0 _ _ a k (Fin.castAdd 16 k) (by simp)
  have s1 : ∀ (a : Fin 128) (k : Fin 16), extractStridedSlice S128x16 ![0, 128] (m ((c.tc : Thread nD τ).loc main_arg5)) slices_S128x144_S128x16_0_128 (ix2 a k)
      = m ((c.tc : Thread nD τ).loc main_arg5) (ix2 a (Fin.natAdd 128 k)) := fun a k =>
    slice2_axis1_apply 128 _ _ a k (Fin.natAdd 128 k) (by simp)
  have s2 : ∀ (a : Fin 128), shapeCast S1x128 (m ((c.tc : Thread nD τ).loc main_arg6)) shapeCasts_S128_S1x128 (ix2 (0 : Fin 1) a)
      = m ((c.tc : Thread nD τ).loc main_arg6) (ix1 a) := fun a => shapeCast_a_1a_apply _ _ 0 a
  simp only [s0, s1, s2]

/-! ## What the host stretch between the kernels reads: the first kernel's output, and arguments neither the first
    stretch nor the first kernel wrote -/

/-- Argument 2 is no array of the first kernel and no host operation writes it: after the first kernel it is as launched. -/
theorem W2_arg2 (c : Dev nD) : W2 m ρ c (Proc.devRef .tc main_arg2) = m ((c.tc : Thread nD τ).loc main_arg2) :=
  (W2_of_ne m ρ c main_arg2 (by decide)).trans (by
    show StableHlo.after hostOps0 (W0 m ρ c) (Proc.devRef .tc main_arg2) = _
    after_results)
/-- Argument 3 is no array of the first kernel and no host operation writes it: after the first kernel it is as launched. -/
theorem W2_arg3 (c : Dev nD) : W2 m ρ c (Proc.devRef .tc main_arg3) = m ((c.tc : Thread nD τ).loc main_arg3) :=
  (W2_of_ne m ρ c main_arg3 (by decide)).trans (by
    show StableHlo.after hostOps0 (W0 m ρ c) (Proc.devRef .tc main_arg3) = _
    after_results)
/-- Argument 4 is no array of the first kernel and no host operation writes it: after the first kernel it is as launched. -/
theorem W2_arg4 (c : Dev nD) : W2 m ρ c (Proc.devRef .tc main_arg4) = m ((c.tc : Thread nD τ).loc main_arg4) :=
  (W2_of_ne m ρ c main_arg4 (by decide)).trans (by
    show StableHlo.after hostOps0 (W0 m ρ c) (Proc.devRef .tc main_arg4) = _
    after_results)
/-- Argument 7 is no array of the first kernel and no host operation writes it: after the first kernel it is as launched. -/
theorem W2_arg7 (c : Dev nD) : W2 m ρ c (Proc.devRef .tc main_arg7) = m ((c.tc : Thread nD τ).loc main_arg7) :=
  (W2_of_ne m ρ c main_arg7 (by decide)).trans (by
    show StableHlo.after hostOps0 (W0 m ρ c) (Proc.devRef .tc main_arg7) = _
    after_results)
/-- Argument 8 is no array of the first kernel and no host operation writes it: after the first kernel it is as launched. -/
theorem W2_arg8 (c : Dev nD) : W2 m ρ c (Proc.devRef .tc main_arg8) = m ((c.tc : Thread nD τ).loc main_arg8) :=
  (W2_of_ne m ρ c main_arg8 (by decide)).trans (by
    show StableHlo.after hostOps0 (W0 m ρ c) (Proc.devRef .tc main_arg8) = _
    after_results)
/-- Argument 9 is no array of the first kernel and no host operation writes it: after the first kernel it is as launched. -/
theorem W2_arg9 (c : Dev nD) : W2 m ρ c (Proc.devRef .tc main_arg9) = m ((c.tc : Thread nD τ).loc main_arg9) :=
  (W2_of_ne m ρ c main_arg9 (by decide)).trans (by
    show StableHlo.after hostOps0 (W0 m ρ c) (Proc.devRef .tc main_arg9) = _
    after_results)
/-- Argument 10 is no array of the first kernel and no host operation writes it: after the first kernel it is as launched. -/
theorem W2_arg10 (c : Dev nD) : W2 m ρ c (Proc.devRef .tc main_arg10) = m ((c.tc : Thread nD τ).loc main_arg10) :=
  (W2_of_ne m ρ c main_arg10 (by decide)).trans (by
    show StableHlo.after hostOps0 (W0 m ρ c) (Proc.devRef .tc main_arg10) = _
    after_results)
/-- Argument 11 is no array of the first kernel and no host operation writes it: after the first kernel it is as launched. -/
theorem W2_arg11 (c : Dev nD) : W2 m ρ c (Proc.devRef .tc main_arg11) = m ((c.tc : Thread nD τ).loc main_arg11) :=
  (W2_of_ne m ρ c main_arg11 (by decide)).trans (by
    show StableHlo.after hostOps0 (W0 m ρ c) (Proc.devRef .tc main_arg11) = _
    after_results)
/-- Argument 12 is no array of the first kernel and no host operation writes it: after the first kernel it is as launched. -/
theorem W2_arg12 (c : Dev nD) : W2 m ρ c (Proc.devRef .tc main_arg12) = m ((c.tc : Thread nD τ).loc main_arg12) :=
  (W2_of_ne m ρ c main_arg12 (by decide)).trans (by
    show StableHlo.after hostOps0 (W0 m ρ c) (Proc.devRef .tc main_arg12) = _
    after_results)
/-- The old messages are one of the first kernel's input arrays: it leaves them as it found them. -/
theorem W2_arg1 (c : Dev nD) : W2 m ρ c (Proc.devRef .tc main_arg1) = m ((c.tc : Thread nD τ).loc main_arg1) :=
  ((W2_arr m ρ c 0).trans (((dat0 (V1 m ρ) c).arrAt_in 0 rfl _).trans (A_eq0 (V1 m ρ) c 0))).trans (V1_arg1 m ρ c)

/-- The first kernel's output array, as the host stretch between the kernels finds it. -/
theorem W2_v3 (hpay0 : ∀ (v0 : Vec Ideal S5000x128 .f32) (v2 : Vec Ideal S128x128 .f32) (v7 : Vec Ideal S5000x16 .f32) (v9 : Vec Ideal S128x16 .f32)
      (v15 : Vec Ideal S1x128 .f32) (p : Fin 5000) (q : Fin 128), k0_pay1 (F := Ideal) v0 v2 v7 v9 v15 (ix2 p q)
        = msgRow (fun k => v0 (ix2 p k)) (fun k => v7 (ix2 p k)) (fun a k => v2 (ix2 a k)) (fun a k => v9 (ix2 a k)) (fun a => v15 (ix2 (0 : Fin 1) a)) q) (c : Dev nD) :
    W2 m ρ c (Proc.devRef .tc main_v3) = Edge.edgeArr (V1 m ρ) c :=
  (W2_arr m ρ c 5).trans (Edge.edge_final (V1 m ρ) hpay0 c)

/-! ## What the second kernel is entered with -/

/-- The aggregated messages the second kernel is entered with: the aggregation chain of the stage-one array. -/
theorem V3_v16 (hpay0 : ∀ (v0 : Vec Ideal S5000x128 .f32) (v2 : Vec Ideal S128x128 .f32) (v7 : Vec Ideal S5000x16 .f32) (v9 : Vec Ideal S128x16 .f32)
      (v15 : Vec Ideal S1x128 .f32) (p : Fin 5000) (q : Fin 128), k0_pay1 (F := Ideal) v0 v2 v7 v9 v15 (ix2 p q)
        = msgRow (fun k => v0 (ix2 p k)) (fun k => v7 (ix2 p k)) (fun a k => v2 (ix2 a k)) (fun a k => v9 (ix2 a k)) (fun a => v15 (ix2 (0 : Fin 1) a)) q) (c : Dev nD) :
    V3 m ρ c main_v16 = aggK (Edge.edgeArr (V1 m ρ) c) (m ((c.tc : Thread nD τ).loc main_arg2)) (m ((c.tc : Thread nD τ).loc main_arg3)) (m ((c.tc : Thread nD τ).loc main_arg4)) := by
  show StableHlo.after hostOps1 (W2 m ρ c) (Proc.devRef .tc main_v16) = _
  after_results
  rw [W2_v3 m ρ hpay0 c, W2_arg2, W2_arg3, W2_arg4]
  rfl
/-- Argument 1 reaches the second kernel as launched. -/
theorem V3_arg1 (c : Dev nD) : V3 m ρ c main_arg1 = m ((c.tc : Thread nD τ).loc main_arg1) := by
  show StableHlo.after hostOps1 (W2 m ρ c) (Proc.devRef .tc main_arg1) = _
  after_results
  exact W2_arg1 m ρ c
/-- Argument 7 reaches the second kernel as launched. -/
theorem V3_arg7 (c : Dev nD) : V3 m ρ c main_arg7 = m ((c.tc : Thread nD τ).loc main_arg7) := by
  show StableHlo.after hostOps1 (W2 m ρ c) (Proc.devRef .tc main_arg7) = _
  after_results
  exact W2_arg7 m ρ c
/-- Argument 9 reaches the second kernel as launched. -/
theorem V3_arg9 (c : Dev nD) : V3 m ρ c main_arg9 = m ((c.tc : Thread nD τ).loc main_arg9) := by
  show StableHlo.after hostOps1 (W2 m ρ c) (Proc.devRef .tc main_arg9) = _
  after_results
  exact W2_arg9 m ρ c
/-- Argument 10 reaches the second kernel as launched. -/
theorem V3_arg10 (c : Dev nD) : V3 m ρ c main_arg10 = m ((c.tc : Thread nD τ).loc main_arg10) := by
  show StableHlo.after hostOps1 (W2 m ρ c) (Proc.devRef .tc main_arg10) = _
  after_results
  exact W2_arg10 m ρ c
/-- The pass-linear bias as a one-row matrix. -/
theorem V3_v17 (c : Dev nD) : V3 m ρ c main_v17 = shapeCast S1x128 (m ((c.tc : Thread nD τ).loc main_arg8)) shapeCasts_S128_S1x128 := by
  have h : V3 m ρ c main_v17 = shapeCast S1x128 (W2 m ρ c (Proc.devRef .tc main_arg8)) shapeCasts_S128_S1x128 := by
    show StableHlo.after hostOps1 (W2 m ρ c) (Proc.devRef .tc main_v17) = _
    after_results <;> rfl
  rw [h, W2_arg8]
/-- The cell's input bias as a one-row matrix. -/
theorem V3_v18 (c : Dev nD) : V3 m ρ c main_v18 = shapeCast S1x384 (m ((c.tc : Thread nD τ).loc main_arg11)) shapeCasts_S384_S1x384 := by
  have h : V3 m ρ c main_v18 = shapeCast S1x384 (W2 m ρ c (Proc.devRef .tc main_arg11)) shapeCasts_S384_S1x384 := by
    show StableHlo.after hostOps1 (W2 m ρ c) (Proc.devRef .tc main_v18) = _
    after_results <;> rfl
  rw [h, W2_arg11]
/-- The cell's hidden bias as a one-row matrix. -/
theorem V3_v19 (c : Dev nD) : V3 m ρ c main_v19 = shapeCast S1x384 (m ((c.tc : Thread nD τ).loc main_arg12)) shapeCasts_S384_S1x384 := by
  have h : V3 m ρ c main_v19 = shapeCast S1x384 (W2 m ρ c (Proc.devRef .tc main_arg12)) shapeCasts_S384_S1x384 := by
    show StableHlo.after hostOps1 (W2 m ρ c) (Proc.devRef .tc main_v19) = _
    after_results <;> rfl
  rw [h, W2_arg12]

/-- Row by row, the stage-three array of the second kernel's entry contents is the gated recurrent cell of the
    aggregation of the stage-one array and of the ARGUMENTS: the reshaped bias rows are the bias vectors' entries. -/
theorem gru_rows (hpay0 : ∀ (v0 : Vec Ideal S5000x128 .f32) (v2 : Vec Ideal S128x128 .f32) (v7 : Vec Ideal S5000x16 .f32) (v9 : Vec Ideal S128x16 .f32)
      (v15 : Vec Ideal S1x128 .f32) (p : Fin 5000) (q : Fin 128), k0_pay1 (F := Ideal) v0 v2 v7 v9 v15 (ix2 p q)
        = msgRow (fun k => v0 (ix2 p k)) (fun k => v7 (ix2 p k)) (fun a k => v2 (ix2 a k)) (fun a k => v9 (ix2 a k)) (fun a => v15 (ix2 (0 : Fin 1) a)) q) (c : Dev nD) (i : S200000x128.Idx) :
    Gru.gruArr (V3 m ρ) c i
      = gruRow (fun k => aggK (Edge.edgeArr (V1 m ρ) c) (m ((c.tc : Thread nD τ).loc main_arg2)) (m ((c.tc : Thread nD τ).loc main_arg3)) (m ((c.tc : Thread nD τ).loc main_arg4)) (ix2 (i 0) k))
          (fun k => m ((c.tc : Thread nD τ).loc main_arg1) (ix2 (i 0) k)) (fun a b => m ((c.tc : Thread nD τ).loc main_arg7) (ix2 a b)) (fun k => m ((c.tc : Thread nD τ).loc main_arg8) (ix1 k))
          (fun g k => m ((c.tc : Thread nD τ).loc main_arg9) (ix2 g k)) (fun g k => m ((c.tc : Thread nD τ).loc main_arg10) (ix2 g k))
          (fun g => m ((c.tc : Thread nD τ).loc main_arg11) (ix1 g)) (fun g => m ((c.tc : Thread nD τ).loc main_arg12) (ix1 g)) (i 1) := by
  unfold Gru.gruArr
  rw [V3_v16 m ρ hpay0 c, V3_arg1, V3_arg7, V3_arg9, V3_arg10, V3_v17, V3_v18, V3_v19]
  have s8 : ∀ (k : Fin 128), shapeCast S1x128 (m ((c.tc : Thread nD τ).loc main_arg8)) shapeCasts_S128_S1x128 (ix2 (0 : Fin 1) k) = m ((c.tc : Thread nD τ).loc main_arg8) (ix1 k) :=
    fun k => shapeCast_a_1a_apply _ _ 0 k
  have s11 : ∀ (g : Fin 384), shapeCast S1x384 (m ((c.tc : Thread nD τ).loc main_arg11)) shapeCasts_S384_S1x384 (ix2 (0 : Fin 1) g) = m ((c.tc : Thread nD τ).loc main_arg11) (ix1 g) :=
    fun g => shapeCast_a_1a_apply _ _ 0 g
  have s12 : ∀ (g : Fin 384), shapeCast S1x384 (m ((c.tc : Thread nD τ).loc main_arg12)) shapeCasts_S384_S1x384 (ix2 (0 : Fin 1) g) = m ((c.tc : Thread nD τ).loc main_arg12) (ix1 g) :=
    fun g => shapeCast_a_1a_apply _ _ 0 g
  simp only [s8, s11, s12]

/-- The result buffer after the run holds the stage-three array of the second kernel's entry contents. -/
theorem W4_v20 (hpay1 : ∀ (v0 v2 : Vec Ideal S2000x128 .f32) (v4 : Vec Ideal S128x128 .f32) (v8 : Vec Ideal S1x128 .f32) (v15 v24 : Vec Ideal S384x128 .f32)
      (v19 v28 : Vec Ideal S1x384 .f32) (p : Fin 2000) (q : Fin 128),
      k1_pay1 (F := Ideal) v2 (k1_pay4 v0 v4 v8 v15 v19) (k1_pay5 v0 v4 v8 v15 v19) (k1_pay6 v2 v24 v28) (k1_pay7 v2 v24 v28) (k1_pay8 v0 v2 v4 v8 v15 v19 v24 v28) (ix2 p q)
        = gruRow (fun k => v0 (ix2 p k)) (fun k => v2 (ix2 p k)) (fun a b => v4 (ix2 a b)) (fun k => v8 (ix2 (0 : Fin 1) k)) (fun g k => v15 (ix2 g k))
            (fun g k => v24 (ix2 g k)) (fun g => v19 (ix2 (0 : Fin 1) g)) (fun g => v28 (ix2 (0 : Fin 1) g)) q) (c : Dev nD) :
    W4 m ρ c (Proc.devRef .tc main_v20) = Gru.gruArr (V3 m ρ) c :=
  (W4_arr m ρ c 8).trans (Gru.gru_final (V3 m ρ) hpay1 c)

end Cert.EdgeGru.KV

end
-- ==== Proof.Payloads.lean ====
/-
  The two kernels' stored values read at one index.

  Each kernel stores one array whose entry at row `p`, column `q` depends on row `p` of its row inputs and on the
  whole weight matrices. This module reads those entries and identifies them with the row-by-row mathematics of the
  specification (`msgRow`, `gateI`, `gateH`, `gruRow`).

  * A contraction into a zero accumulator, read at `(p, q)`, is the sum over the shared axis of the products of the
    left operand's row `p` and the right operand's column `q` (one lemma per contraction shape, `mm_*`).
  * The right operand is always a transposed weight matrix, so its column `q` is the weight's row `q`: the sum
    becomes `∑ k, x(p,k) · W(q,k)`.
  * A change of float format is the identity on extended reals; a cast to the same shape is the identity; a bias row
    broadcast over the rows reads its one row at the column.
  * A 128-wide slice of a 384-wide gate vector at offset 0, 128, 256 reads the gate vector at `lo q`, `mid q`, `hi q`.
-/
import proofs.«102535_j48962627174424_1_alg».proof.Proof.Gen.KernelIdeal.Skeleton
import proofs.«102535_j48962627174424_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

namespace Cert.EdgeGru.Pay

open Cert.KernelIdeal Cert.KernelIdeal.Gen Idealize.ShloMosaic ValueIdx Cert.EdgeGru

/-- The left operand's row coordinate of `mm_msg`'s contraction is the output's row. -/
theorem mm_msg_lhs0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The right operand's column coordinate of `mm_msg`'s contraction is the output's column. -/
theorem mm_msg_rhs1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The contraction of a [5000,128] left operand with a [128,128] right operand into a zero accumulator, read at
    row `p`, column `q`: the sum over the shared axis of the products. -/
theorem mm_msg (lhs : FVec Ideal S5000x128 .bf16) (rhs : FVec Ideal S128x128 .bf16) (p : Fin 5000) (q : Fin 128) :
    matmul dot_S5000x128_S128x128_S5000x128_1_0_0_1_n_n none lhs rhs (constant (F := Ideal) S5000x128 .f32 0x00000000#32) (ix2 p q)
      = ∑ k : Fin 128, lhs (ix2 p k) * rhs (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k :=
    funext fun a => Fin.ext (by
      match a with
      | ⟨0, _⟩ => exact mm_msg_lhs0 _ _
      | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl (ix2 p q) _).trans hk
      | ⟨1, _⟩ => exact mm_msg_rhs1 _ _)
  rw [el, er]

/-- The left operand's row coordinate of `mm_feat`'s contraction is the output's row. -/
theorem mm_feat_lhs0 (i : S5000x128.Idx) (c : dot_S5000x16_S16x128_S5000x128_1_0_0_1_n_n.contr.Idx) :
    (dot_S5000x16_S16x128_S5000x128_1_0_0_1_n_n.lhsIdx i c 0).val = (i 0).val := by
  unfold DotDims.lhsIdx
  rw [dif_neg (show ¬(0 : Fin S5000x16.rank) ∈ dot_S5000x16_S16x128_S5000x128_1_0_0_1_n_n.lhsBatch by decide),
    dif_pos (show (0 : Fin S5000x16.rank) ∈ dot_S5000x16_S16x128_S5000x128_1_0_0_1_n_n.lhsNonContracting by decide)]
  rfl

/-- The right operand's column coordinate of `mm_feat`'s contraction is the output's column. -/
theorem mm_feat_rhs1 (i : S5000x128.Idx) (c : dot_S5000x16_S16x128_S5000x128_1_0_0_1_n_n.contr.Idx) :
    (dot_S5000x16_S16x128_S5000x128_1_0_0_1_n_n.rhsIdx i c 1).val = (i 1).val := by
  unfold DotDims.rhsIdx
  rw [dif_neg (show ¬(1 : Fin S16x128.rank) ∈ dot_S5000x16_S16x128_S5000x128_1_0_0_1_n_n.rhsBatch by decide),
    dif_pos (show (1 : Fin S16x128.rank) ∈ dot_S5000x16_S16x128_S5000x128_1_0_0_1_n_n.rhsNonContracting by decide)]
  rfl

/-- The contraction of a [5000,16] left operand with a [16,128] right operand into a zero accumulator, read at
    row `p`, column `q`: the sum over the shared axis of the products. -/
theorem mm_feat (lhs : FVec Ideal S5000x16 .bf16) (rhs : FVec Ideal S16x128 .bf16) (p : Fin 5000) (q : Fin 128) :
    matmul dot_S5000x16_S16x128_S5000x128_1_0_0_1_n_n none lhs rhs (constant (F := Ideal) S5000x128 .f32 0x00000000#32) (ix2 p q)
      = ∑ k : Fin 16, lhs (ix2 p k) * rhs (ix2 k q) := by
  simp only [matmul]
  rw [Ideal.matmul_constant_zero_apply, ← Equiv.sum_comp (ValueIdx.contrEquiv1 dot_S5000x16_S16x128_S5000x128_1_0_0_1_n_n 16 rfl rfl).symm]
  refine Finset.sum_congr rfl fun k _ => ?_
  have hk := ValueIdx.contrEquiv1_symm_val dot_S5000x16_S16x128_S5000x128_1_0_0_1_n_n 16 rfl rfl k
  have el : dot_S5000x16_S16x128_S5000x128_1_0_0_1_n_n.lhsIdx (ix2 p q) ((ValueIdx.contrEquiv1 dot_S5000x16_S16x128_S5000x128_1_0_0_1_n_n 16 rfl rfl).symm k) = ix2 p k :=
    funext fun a => Fin.ext (by
      match a with
      | ⟨0, _⟩ => exact mm_feat_lhs0 _ _
      | ⟨1, _⟩ => exact (dot_S5000x16_S16x128_S5000x128_1_0_0_1_n_n.lhsIdx_val_of_single rfl (ix2 p q) _).trans hk)
  have er : dot_S5000x16_S16x128_S5000x128_1_0_0_1_n_n.rhsIdx (ix2 p q) ((ValueIdx.contrEquiv1 dot_S5000x16_S16x128_S5000x128_1_0_0_1_n_n 16 rfl rfl).symm k) = ix2 k q :=
    funext fun a => Fin.ext (by
      match a with
      | ⟨0, _⟩ => exact (dot_S5000x16_S16x128_S5000x128_1_0_0_1_n_n.rhsIdx_val_of_single rfl (ix2 p q) _).trans hk
      | ⟨1, _⟩ => exact mm_feat_rhs1 _ _)
  rw [el, er]

/-- The left operand's row coordinate of `mm_pass`'s contraction is the output's row. -/
theorem mm_pass_lhs0 (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The right operand's column coordinate of `mm_pass`'s contraction is the output's column. -/
theorem mm_pass_rhs1 (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The contraction of a [2000,128] left operand with a [128,128] right operand into a zero accumulator, read at
    row `p`, column `q`: the sum over the shared axis of the products. -/
theorem mm_pass (lhs : FVec Ideal S2000x128 .bf16) (rhs : FVec Ideal S128x128 .bf16) (p : Fin 2000) (q : Fin 128) :
    matmul dot_S2000x128_S128x128_S2000x128_1_0_0_1_n_n none lhs rhs (constant (F := Ideal) S2000x128 .f32 0x00000000#32) (ix2 p q)
      = ∑ k : Fin 128, lhs (ix2 p k) * rhs (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k :=
    funext fun a => Fin.ext (by
      match a with
      | ⟨0, _⟩ => exact mm_pass_lhs0 _ _
      | ⟨1, _⟩ => exact (dot_S2000x128_S128x128_S2000x128_1_0_0_1_n_n.lhsIdx_val_of_single rfl (ix2 p q) _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q :=
    funext fun a => Fin.ext (by
      match a with
      | ⟨0, _⟩ => exact (dot_S2000x128_S128x128_S2000x128_1_0_0_1_n_n.rhsIdx_val_of_single rfl (ix2 p q) _).trans hk
      | ⟨1, _⟩ => exact mm_pass_rhs1 _ _)
  rw [el, er]

/-- The left operand's row coordinate of `mm_gate`'s contraction is the output's row. -/
theorem mm_gate_lhs0 (i : S2000x384.Idx) (c : dot_S2000x128_S128x384_S2000x384_1_0_0_1_n_n.contr.Idx) :
    (dot_S2000x128_S128x384_S2000x384_1_0_0_1_n_n.lhsIdx i c 0).val = (i 0).val := by
  unfold DotDims.lhsIdx
  rw [dif_neg (show ¬(0 : Fin S2000x128.rank) ∈ dot_S2000x128_S128x384_S2000x384_1_0_0_1_n_n.lhsBatch by decide),
    dif_pos (show (0 : Fin S2000x128.rank) ∈ dot_S2000x128_S128x384_S2000x384_1_0_0_1_n_n.lhsNonContracting by decide)]
  rfl

/-- The right operand's column coordinate of `mm_gate`'s contraction is the output's column. -/
theorem mm_gate_rhs1 (i : S2000x384.Idx) (c : dot_S2000x128_S128x384_S2000x384_1_0_0_1_n_n.contr.Idx) :
    (dot_S2000x128_S128x384_S2000x384_1_0_0_1_n_n.rhsIdx i c 1).val = (i 1).val := by
  unfold DotDims.rhsIdx
  rw [dif_neg (show ¬(1 : Fin S128x384.rank) ∈ dot_S2000x128_S128x384_S2000x384_1_0_0_1_n_n.rhsBatch by decide),
    dif_pos (show (1 : Fin S128x384.rank) ∈ dot_S2000x128_S128x384_S2000x384_1_0_0_1_n_n.rhsNonContracting by decide)]
  rfl

/-- The contraction of a [2000,128] left operand with a [128,384] right operand into a zero accumulator, read at
    row `p`, column `q`: the sum over the shared axis of the products. -/
theorem mm_gate (lhs : FVec Ideal S2000x128 .bf16) (rhs : FVec Ideal S128x384 .bf16) (p : Fin 2000) (q : Fin 384) :
    matmul dot_S2000x128_S128x384_S2000x384_1_0_0_1_n_n none lhs rhs (constant (F := Ideal) S2000x384 .f32 0x00000000#32) (ix2 p q)
      = ∑ k : Fin 128, lhs (ix2 p k) * rhs (ix2 k q) := by
  simp only [matmul]
  rw [Ideal.matmul_constant_zero_apply, ← Equiv.sum_comp (ValueIdx.contrEquiv1 dot_S2000x128_S128x384_S2000x384_1_0_0_1_n_n 128 rfl rfl).symm]
  refine Finset.sum_congr rfl fun k _ => ?_
  have hk := ValueIdx.contrEquiv1_symm_val dot_S2000x128_S128x384_S2000x384_1_0_0_1_n_n 128 rfl rfl k
  have el : dot_S2000x128_S128x384_S2000x384_1_0_0_1_n_n.lhsIdx (ix2 p q) ((ValueIdx.contrEquiv1 dot_S2000x128_S128x384_S2000x384_1_0_0_1_n_n 128 rfl rfl).symm k) = ix2 p k :=
    funext fun a => Fin.ext (by
      match a with
      | ⟨0, _⟩ => exact mm_gate_lhs0 _ _
      | ⟨1, _⟩ => exact (dot_S2000x128_S128x384_S2000x384_1_0_0_1_n_n.lhsIdx_val_of_single rfl (ix2 p q) _).trans hk)
  have er : dot_S2000x128_S128x384_S2000x384_1_0_0_1_n_n.rhsIdx (ix2 p q) ((ValueIdx.contrEquiv1 dot_S2000x128_S128x384_S2000x384_1_0_0_1_n_n 128 rfl rfl).symm k) = ix2 k q :=
    funext fun a => Fin.ext (by
      match a with
      | ⟨0, _⟩ => exact (dot_S2000x128_S128x384_S2000x384_1_0_0_1_n_n.rhsIdx_val_of_single rfl (ix2 p q) _).trans hk
      | ⟨1, _⟩ => exact mm_gate_rhs1 _ _)
  rw [el, er]

/-- Stage one's stored value at row `p`, column `q`. The two contractions read the transposed weight blocks, so each
    is the row-by-row sum `∑ k, x(p,k) · W(q,k)`; the format changes are the identity on extended reals; the bias
    is one row read at column `q`; the rectifier compares with the literal `+0.0`. -/
theorem edge_pay_apply (v0 : Vec Ideal S5000x128 .f32) (v2 : Vec Ideal S128x128 .f32) (v7 : Vec Ideal S5000x16 .f32)
    (v9 : Vec Ideal S128x16 .f32) (v15 : Vec Ideal S1x128 .f32) (p : Fin 5000) (q : Fin 128) :
    k0_pay1 (F := Ideal) v0 v2 v7 v9 v15 (ix2 p q)
      = msgRow (fun k => v0 (ix2 p k)) (fun k => v7 (ix2 p k)) (fun a k => v2 (ix2 a k)) (fun a k => v9 (ix2 a k))
          (fun a => v15 (ix2 (0 : Fin 1) a)) q := by
  have hWm : ∀ k : Fin 128, transpose S128x128 [1, 0] (truncf (F := Ideal) .bf16 v2 bitsLt_bf16_f32)
      transposes_S128x128_p1_0_S128x128 (ix2 k q) = v2 (ix2 q k) := fun k => transpose_ix2_apply _ _ k q
  have hWe : ∀ k : Fin 16, transpose S16x128 [1, 0] (truncf (F := Ideal) .bf16 v9 bitsLt_bf16_f32)
      transposes_S128x16_p1_0_S16x128 (ix2 k q) = v9 (ix2 q k) := fun k => transpose_ix2_apply _ _ k q
  unfold k0_pay1 msgRow relu
  simp only [shapeCast_self]
  rw [maximumf_apply, addf_apply, addf_apply, broadcast_apply, mm_msg, mm_feat, broadcastTo_1b_ab_apply]
  simp only [truncf_apply, hWm, hWe]
  rfl

/-- The logistic function applied entrywise, read at an index. -/
theorem logistic_apply {s : Shape} {φ : FTy} (a : FVec Ideal s φ) (i : s.Idx) :
    logistic a i = Ideal.logistic (a i) := rfl

/-- The hyperbolic tangent applied entrywise, read at an index. -/
theorem tanh_apply {s : Shape} {φ : FTy} (a : FVec Ideal s φ) (i : s.Idx) :
    tanh a i = Ideal.tanh (a i) := rfl

/-- The stacked input gates at row `p`, gate entry `g`: the pass-linear row (a contraction with the transposed
    `W2`, its bias row, the rectifier) contracted with the transposed input-gate weights, plus the input-gate bias. -/
theorem gateI_apply (v0 : Vec Ideal S2000x128 .f32) (v4 : Vec Ideal S128x128 .f32) (v8 : Vec Ideal S1x128 .f32)
    (v15 : Vec Ideal S384x128 .f32) (v19 : Vec Ideal S1x384 .f32) (p : Fin 2000) (g : Fin 384) :
    k1_pay2 (F := Ideal) v0 v4 v8 v15 v19 (ix2 p g)
      = gateI (fun k => v0 (ix2 p k)) (fun a b => v4 (ix2 a b)) (fun k => v8 (ix2 (0 : Fin 1) k))
          (fun g k => v15 (ix2 g k)) (fun g => v19 (ix2 (0 : Fin 1) g)) g := by
  have hW2 : ∀ j k : Fin 128, transpose S128x128 [1, 0] (truncf (F := Ideal) .bf16 v4 bitsLt_bf16_f32)
      transposes_S128x128_p1_0_S128x128 (ix2 j k) = v4 (ix2 k j) := fun j k => transpose_ix2_apply _ _ j k
  have hWih : ∀ k : Fin 128, transpose S128x384 [1, 0] (truncf (F := Ideal) .bf16 v15 bitsLt_bf16_f32)
      transposes_S384x128_p1_0_S128x384 (ix2 k g) = v15 (ix2 g k) := fun k => transpose_ix2_apply _ _ k g
  have hb2 : ∀ k : Fin 128, broadcastTo S2000x128 v8 broadcasts_S1x128_S2000x128 (ix2 p k) = v8 (ix2 (0 : Fin 1) k) :=
    fun k => broadcastTo_1b_ab_apply _ _ p k
  unfold k1_pay2 gateI passRow relu
  simp only [shapeCast_self]
  rw [addf_apply, mm_gate, broadcastTo_1b_ab_apply]
  simp only [truncf_apply, maximumf_apply, addf_apply, broadcast_apply, mm_pass, hb2, hW2, hWih]
  rfl

/-- The stacked hidden gates at row `p`, gate entry `g`: the old message row contracted with the transposed
    hidden-gate weights, plus the hidden-gate bias. -/
theorem gateH_apply (v2 : Vec Ideal S2000x128 .f32) (v24 : Vec Ideal S384x128 .f32) (v28 : Vec Ideal S1x384 .f32)
    (p : Fin 2000) (g : Fin 384) :
    k1_pay3 (F := Ideal) v2 v24 v28 (ix2 p g)
      = gateH (fun k => v2 (ix2 p k)) (fun g k => v24 (ix2 g k)) (fun g => v28 (ix2 (0 : Fin 1) g)) g := by
  have hWhh : ∀ k : Fin 128, transpose S128x384 [1, 0] (truncf (F := Ideal) .bf16 v24 bitsLt_bf16_f32)
      transposes_S384x128_p1_0_S128x384 (ix2 k g) = v24 (ix2 g k) := fun k => transpose_ix2_apply _ _ k g
  unfold k1_pay3 gateH
  simp only [shapeCast_self]
  rw [addf_apply, mm_gate, broadcastTo_1b_ab_apply]
  simp only [truncf_apply, hWhh]

/-- The update block of the input gates: the 128 columns from 128 on. -/
theorem pay4_apply (v0 : Vec Ideal S2000x128 .f32) (v4 : Vec Ideal S128x128 .f32) (v8 : Vec Ideal S1x128 .f32)
    (v15 : Vec Ideal S384x128 .f32) (v19 : Vec Ideal S1x384 .f32) (p : Fin 2000) (q : Fin 128) :
    k1_pay4 (F := Ideal) v0 v4 v8 v15 v19 (ix2 p q) = k1_pay2 (F := Ideal) v0 v4 v8 v15 v19 (ix2 p (mid q)) := by
  unfold k1_pay4
  exact slice2_axis1_apply 128 _ slices_S2000x384_o0_128_S2000x128 p q (mid q) rfl

/-- The candidate block of the input gates: the 128 columns from 256 on. -/
theorem pay5_apply (v0 : Vec Ideal S2000x128 .f32) (v4 : Vec Ideal S128x128 .f32) (v8 : Vec Ideal S1x128 .f32)
    (v15 : Vec Ideal S384x128 .f32) (v19 : Vec Ideal S1x384 .f32) (p : Fin 2000) (q : Fin 128) :
    k1_pay5 (F := Ideal) v0 v4 v8 v15 v19 (ix2 p q) = k1_pay2 (F := Ideal) v0 v4 v8 v15 v19 (ix2 p (hi q)) := by
  unfold k1_pay5
  exact slice2_axis1_apply 256 _ slices_S2000x384_o0_256_S2000x128 p q (hi q) rfl

/-- The update block of the hidden gates. -/
theorem pay6_apply (v2 : Vec Ideal S2000x128 .f32) (v24 : Vec Ideal S384x128 .f32) (v28 : Vec Ideal S1x384 .f32)
    (p : Fin 2000) (q : Fin 128) :
    k1_pay6 (F := Ideal) v2 v24 v28 (ix2 p q) = k1_pay3 (F := Ideal) v2 v24 v28 (ix2 p (mid q)) := by
  unfold k1_pay6
  exact slice2_axis1_apply 128 _ slices_S2000x384_o0_128_S2000x128 p q (mid q) rfl

/-- The candidate block of the hidden gates. -/
theorem pay7_apply (v2 : Vec Ideal S2000x128 .f32) (v24 : Vec Ideal S384x128 .f32) (v28 : Vec Ideal S1x384 .f32)
    (p : Fin 2000) (q : Fin 128) :
    k1_pay7 (F := Ideal) v2 v24 v28 (ix2 p q) = k1_pay3 (F := Ideal) v2 v24 v28 (ix2 p (hi q)) := by
  unfold k1_pay7
  exact slice2_axis1_apply 256 _ slices_S2000x384_o0_256_S2000x128 p q (hi q) rfl

/-- The reset gate's pre-activation: the first 128 columns of the input gates plus those of the hidden gates. -/
theorem pay8_apply (v0 v2 : Vec Ideal S2000x128 .f32) (v4 : Vec Ideal S128x128 .f32) (v8 : Vec Ideal S1x128 .f32)
    (v15 : Vec Ideal S384x128 .f32) (v19 : Vec Ideal S1x384 .f32) (v24 : Vec Ideal S384x128 .f32)
    (v28 : Vec Ideal S1x384 .f32) (p : Fin 2000) (q : Fin 128) :
    k1_pay8 (F := Ideal) v0 v2 v4 v8 v15 v19 v24 v28 (ix2 p q)
      = k1_pay2 (F := Ideal) v0 v4 v8 v15 v19 (ix2 p (lo q)) + k1_pay3 (F := Ideal) v2 v24 v28 (ix2 p (lo q)) := by
  unfold k1_pay8
  rw [addf_apply,
    slice2_axis1_apply 0 _ slices_S2000x384_o0_0_S2000x128 p q (lo q) (Nat.zero_add _).symm,
    slice2_axis1_apply 0 _ slices_S2000x384_o0_0_S2000x128 p q (lo q) (Nat.zero_add _).symm]

/-- The gated recurrent cell's stored value at row `p`, column `q`: the two logistic gates, the candidate's
    hyperbolic tangent and the convex mixture with the literal `1.0`, over the gate vectors read at the reset,
    update and candidate entries of column `q`. -/
theorem gru_pay_apply (v0 v2 : Vec Ideal S2000x128 .f32) (v4 : Vec Ideal S128x128 .f32) (v8 : Vec Ideal S1x128 .f32)
    (v15 v24 : Vec Ideal S384x128 .f32) (v19 v28 : Vec Ideal S1x384 .f32) (p : Fin 2000) (q : Fin 128) :
    k1_pay1 (F := Ideal) v2 (k1_pay4 v0 v4 v8 v15 v19) (k1_pay5 v0 v4 v8 v15 v19) (k1_pay6 v2 v24 v28)
        (k1_pay7 v2 v24 v28) (k1_pay8 v0 v2 v4 v8 v15 v19 v24 v28) (ix2 p q)
      = gruRow (fun k => v0 (ix2 p k)) (fun k => v2 (ix2 p k)) (fun a b => v4 (ix2 a b))
          (fun k => v8 (ix2 (0 : Fin 1) k)) (fun g k => v15 (ix2 g k)) (fun g k => v24 (ix2 g k))
          (fun g => v19 (ix2 (0 : Fin 1) g)) (fun g => v28 (ix2 (0 : Fin 1) g)) q := by
  unfold k1_pay1 gruRow
  simp only [addf_apply, mulf_apply, subf_apply, logistic_apply, tanh_apply, broadcast_apply,
    pay4_apply, pay5_apply, pay6_apply, pay7_apply, pay8_apply, gateI_apply, gateH_apply]
  rfl

end Cert.EdgeGru.Pay

end
-- ==== Proof.RefIsSpec.lean ====
/-
  The reference program computes the specification.

  The reference's values are read one operation at a time (the imported module states each operation's result
  at an index in terms of its operands at an index). Three facts are proved here.
  * The sparse aggregation (a gather of rows, a scaling by the adjacency values and a scatter-add over rows) is
    one fixed function `aggOf` of the stage-one array and of the adjacency's rows, columns and values; it is never
    opened, only named.
  * Stage one: at every entry, the rectified affine image of the concatenated row `[h | e]` under the full
    128 × 144 weight matrix is `msgRow`. The only law used is that a sum over the 144 joined columns is the sum over
    the first 128 columns (which read the old message row and the left block of the weights) plus the sum over the
    last 16 (which read the edge-feature row and the right block).
  * Stage three: at every entry, the pass-linear layer, the two stacked gate products, the three 128-wide slices of
    the 384-wide gate vectors (reset, update, candidate: offsets 0, 128, 256), the two logistic gates spelt
    `1 / (1 + exp (-x))`, the hyperbolic tangent and the convex mixture are `gruRow`, with the aggregated array kept
    as an opaque name.
  Each statement is first proved at an entry given by its two coordinates `(p, q)`, then restated at an arbitrary
  index of the 200000 × 128 array.
-/
import proofs.«102535_j48962627174424_1_alg».proof.Proof.Gen.ReferenceIdeal.Read
import proofs.«102535_j48962627174424_1_alg».proof.Proof.Spec
import Idealize.ShloMosaic.Lib.ValueIdx
import Idealize.ShloMosaic.Lib.Pipeline.Value
import Idealize.ShloMosaic.Lib.IdealHost
import Idealize.ShloMosaic.PureOps.Ideal
import Idealize.ShloMosaic.PureOps.Ideal.Laws

noncomputable section

namespace Cert.EdgeGru.Ref

open Cert.ReferenceIdeal Cert.ReferenceIdeal.Gen Cert.ReferenceIdeal.Read Idealize.ShloMosaic Idealize.ShloMosaic.TcCoe
  Idealize.SL.Sem Idealize.ShloMosaic.StableHlo ValueIdx Cert.EdgeGru

/-- The sparse aggregation as one function of the stage-one array `msg` and of the adjacency's rows `x2`, columns `x3`
    and values `x4`: gather the rows of `msg` named by the columns, scale each by its value, and add each into the row
    named by the rows, starting from the zero array. -/
def aggOf (msg : (⟨S200000x128, .f32⟩ : BufTy).Contents (Elt Ideal)) (x2 x3 : (⟨S1600000, .i32⟩ : BufTy).Contents (Elt Ideal))
    (x4 : (⟨S1600000, .f32⟩ : BufTy).Contents (Elt Ideal)) : (⟨S200000x128, .f32⟩ : BufTy).Contents (Elt Ideal) :=
  Host.scatterAdd (F := Ideal) (φ := .f32) scatter_S200000x128_S1600000x1_S1600000x128_1_0_0_1 (val_main_v17 (F := Ideal)) (val_main_v18 (F := Ideal) x2)
    (mulf (F := Ideal) (φ := .f32) (Host.gather gather_S200000x128_S1600000x1_S1600000x128_1_0_n_n_0_1_1128 msg (val_main_v12 (F := Ideal) x3))
      (val_main_v15 (F := Ideal) x4))

/-- The reference's aggregated array is `aggOf` of its stage-one array. -/
theorem v19_eq (x0 : (⟨S200000x16, .f32⟩ : BufTy).Contents (Elt Ideal)) (x1 : (⟨S200000x128, .f32⟩ : BufTy).Contents (Elt Ideal))
    (x2 x3 : (⟨S1600000, .i32⟩ : BufTy).Contents (Elt Ideal)) (x4 : (⟨S1600000, .f32⟩ : BufTy).Contents (Elt Ideal))
    (x5 : (⟨S128x144, .f32⟩ : BufTy).Contents (Elt Ideal)) (x6 : (⟨S128, .f32⟩ : BufTy).Contents (Elt Ideal)) :
    val_main_v19 (F := Ideal) x0 x1 x2 x3 x4 x5 x6 = aggOf (val_main_v6 (F := Ideal) x0 x1 x5 x6) x2 x3 x4 := by
  unfold val_main_v19 val_main_v16 val_main_v13 aggOf
  rfl

/-- The concatenated row `[h | e]` at one of its first 128 columns is the old message row there. -/
theorem cat_left (x0 : (⟨S200000x16, .f32⟩ : BufTy).Contents (Elt Ideal)) (x1 : (⟨S200000x128, .f32⟩ : BufTy).Contents (Elt Ideal))
    (p : Fin 200000) (k : Fin 128) :
    val_main_v0 (F := Ideal) x0 x1 (ix2 p (Fin.castAdd 16 k)) = x1 (ix2 p k) := by
  unfold val_main_v0
  exact concatenate_pair_apply_left 1 x1 x0 concatenates_S200000x128_S200000x16_S200000x144_d1 (ix2 p (Fin.castAdd 16 k)) rfl (ix2 p k)
    (fun b => match b with
      | ⟨0, _⟩ => rfl
      | ⟨1, _⟩ => rfl)

/-- The concatenated row `[h | e]` at column `128 + k` is the edge-feature row at column `k`. -/
theorem cat_right (x0 : (⟨S200000x16, .f32⟩ : BufTy).Contents (Elt Ideal)) (x1 : (⟨S200000x128, .f32⟩ : BufTy).Contents (Elt Ideal))
    (p : Fin 200000) (k : Fin 16) :
    val_main_v0 (F := Ideal) x0 x1 (ix2 p (Fin.natAdd 128 k)) = x0 (ix2 p k) := by
  unfold val_main_v0
  exact concatenate_pair_apply_right 1 x1 x0 concatenates_S200000x128_S200000x16_S200000x144_d1 (ix2 p (Fin.natAdd 128 k)) rfl rfl (ix2 p k)
    (fun b => match b with
      | ⟨0, _⟩ => fun _ => rfl
      | ⟨1, _⟩ => fun h => absurd rfl h)
    (by show k.val + 128 = 128 + k.val; omega)

/-- Stage one at the entry `(p, q)`: the 144-term sum over the concatenated row splits into the 128-term sum over
    the old message row and the 16-term sum over the edge-feature row. -/
theorem msg_eq_ix (x0 : (⟨S200000x16, .f32⟩ : BufTy).Contents (Elt Ideal)) (x1 : (⟨S200000x128, .f32⟩ : BufTy).Contents (Elt Ideal))
    (x5 : (⟨S128x144, .f32⟩ : BufTy).Contents (Elt Ideal)) (x6 : (⟨S128, .f32⟩ : BufTy).Contents (Elt Ideal))
    (p : Fin 200000) (q : Fin 128) :
    val_main_v6 (F := Ideal) x0 x1 x5 x6 (ix2 p q)
      = msgRow (fun k => x1 (ix2 p k)) (fun k => x0 (ix2 p k)) (fun a k => x5 (ix2 a (Fin.castAdd 16 k)))
          (fun a k => x5 (ix2 a (Fin.natAdd 128 k))) (fun a => x6 (ix1 a)) q := by
  have hl : ∀ k : Fin 144, lidx_main_v2 (ix2 p q) k = ix2 p k := fun k => funext fun a => by
    match a with
    | ⟨0, _⟩ => rfl
    | ⟨1, _⟩ => rfl
  have hr : ∀ k : Fin 144, idx_main_v1 (ridx_main_v2 (ix2 p q) k) = ix2 q k := fun k => funext fun a => by
    match a with
    | ⟨0, _⟩ => rfl
    | ⟨1, _⟩ => rfl
  have hb : idx_main_v3 (idx_main_v4 (ix2 p q)) = ix1 q := funext fun a => by
    match a with
    | ⟨0, _⟩ => rfl
  rw [val_main_v6_apply, val_main_v5_apply, val_main_v2_apply, val_main_v4_apply, val_main_v3_apply,
    val_main_call0_v0_apply, val_main_call0_cst_apply, hb]
  simp only [val_main_v1_apply, hl, hr]
  rw [sum_split]
  simp only [cat_left, cat_right]
  unfold msgRow relu
  rfl

/-- The pass-linear layer at the entry `(p, k)`: the rectified affine image of row `p` of the aggregated array. -/
theorem pass_eq_ix (x0 : (⟨S200000x16, .f32⟩ : BufTy).Contents (Elt Ideal)) (x1 : (⟨S200000x128, .f32⟩ : BufTy).Contents (Elt Ideal)) (x2 x3 : (⟨S1600000, .i32⟩ : BufTy).Contents (Elt Ideal)) (x4 : (⟨S1600000, .f32⟩ : BufTy).Contents (Elt Ideal)) (x5 : (⟨S128x144, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) (p : Fin 200000) (k : Fin 128) :
    val_main_v25 (F := Ideal) x0 x1 x2 x3 x4 x5 x6 x7 x8 (ix2 p k)
      = passRow (fun j => val_main_v19 (F := Ideal) x0 x1 x2 x3 x4 x5 x6 (ix2 p j)) (fun a b => x7 (ix2 a b)) (fun a => x8 (ix1 a)) k := by
  have hl : ∀ j : Fin 128, lidx_main_v21 (ix2 p k) j = ix2 p j := fun j => funext fun a => by
    match a with
    | ⟨0, _⟩ => rfl
    | ⟨1, _⟩ => rfl
  have hr : ∀ j : Fin 128, idx_main_v20 (ridx_main_v21 (ix2 p k) j) = ix2 k j := fun j => funext fun a => by
    match a with
    | ⟨0, _⟩ => rfl
    | ⟨1, _⟩ => rfl
  have hb : idx_main_v22 (idx_main_v23 (ix2 p k)) = ix1 k := funext fun a => by
    match a with
    | ⟨0, _⟩ => rfl
  rw [val_main_v25_apply, val_main_v24_apply, val_main_v21_apply, val_main_v23_apply, val_main_v22_apply,
    val_main_call1_v0_apply, val_main_call1_cst_apply, hb]
  simp only [val_main_v20_apply, hl, hr]
  generalize val_main_v19 (F := Ideal) x0 x1 x2 x3 x4 x5 x6 = A
  unfold passRow relu
  rfl

/-- The stacked input gates at the entry `(p, g)`, `g` among the 384 stacked pre-activations. -/
theorem gi_eq_ix (x0 : (⟨S200000x16, .f32⟩ : BufTy).Contents (Elt Ideal)) (x1 : (⟨S200000x128, .f32⟩ : BufTy).Contents (Elt Ideal)) (x2 x3 : (⟨S1600000, .i32⟩ : BufTy).Contents (Elt Ideal)) (x4 : (⟨S1600000, .f32⟩ : BufTy).Contents (Elt Ideal)) (x5 : (⟨S128x144, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) (x9 : (⟨S384x128, .f32⟩ : BufTy).Contents (Elt Ideal)) (x11 : (⟨S384, .f32⟩ : BufTy).Contents (Elt Ideal)) (p : Fin 200000) (g : Fin 384) :
    val_main_v30 (F := Ideal) x0 x1 x2 x3 x4 x5 x6 x7 x8 x9 x11 (ix2 p g)
      = gateI (fun j => val_main_v19 (F := Ideal) x0 x1 x2 x3 x4 x5 x6 (ix2 p j)) (fun a b => x7 (ix2 a b)) (fun a => x8 (ix1 a))
          (fun c k => x9 (ix2 c k)) (fun c => x11 (ix1 c)) g := by
  have hl : ∀ k : Fin 128, lidx_main_v27 (ix2 p g) k = ix2 p k := fun k => funext fun a => by
    match a with
    | ⟨0, _⟩ => rfl
    | ⟨1, _⟩ => rfl
  have hr : ∀ k : Fin 128, idx_main_v26 (ridx_main_v27 (ix2 p g) k) = ix2 g k := fun k => funext fun a => by
    match a with
    | ⟨0, _⟩ => rfl
    | ⟨1, _⟩ => rfl
  have hb : idx_main_v28 (idx_main_v29 (ix2 p g)) = ix1 g := funext fun a => by
    match a with
    | ⟨0, _⟩ => rfl
  rw [val_main_v30_apply, val_main_v27_apply, val_main_v29_apply, val_main_v28_apply, hb]
  simp only [val_main_v26_apply, hl, hr, pass_eq_ix]
  generalize val_main_v19 (F := Ideal) x0 x1 x2 x3 x4 x5 x6 = A
  unfold gateI
  rfl

/-- The stacked hidden gates at the entry `(p, g)`. -/
theorem gh_eq_ix (x1 : (⟨S200000x128, .f32⟩ : BufTy).Contents (Elt Ideal)) (x10 : (⟨S384x128, .f32⟩ : BufTy).Contents (Elt Ideal)) (x12 : (⟨S384, .f32⟩ : BufTy).Contents (Elt Ideal)) (p : Fin 200000) (g : Fin 384) :
    val_main_v35 (F := Ideal) x1 x10 x12 (ix2 p g)
      = gateH (fun k => x1 (ix2 p k)) (fun c k => x10 (ix2 c k)) (fun c => x12 (ix1 c)) g := by
  have hl : ∀ k : Fin 128, lidx_main_v32 (ix2 p g) k = ix2 p k := fun k => funext fun a => by
    match a with
    | ⟨0, _⟩ => rfl
    | ⟨1, _⟩ => rfl
  have hr : ∀ k : Fin 128, idx_main_v31 (ridx_main_v32 (ix2 p g) k) = ix2 g k := fun k => funext fun a => by
    match a with
    | ⟨0, _⟩ => rfl
    | ⟨1, _⟩ => rfl
  have hb : idx_main_v33 (idx_main_v34 (ix2 p g)) = ix1 g := funext fun a => by
    match a with
    | ⟨0, _⟩ => rfl
  rw [val_main_v35_apply, val_main_v32_apply, val_main_v34_apply, val_main_v33_apply, hb]
  simp only [val_main_v31_apply, hl, hr]
  unfold gateH
  rfl

/-- The logistic function spelt with the literal `1.0`: `1 / (1 + exp (-x))`. -/
theorem sigmoid_eq (x : EReal) :
    Ideal.div (Ideal.ofBits .f32 0x3F800000#32) (Ideal.ofBits .f32 0x3F800000#32 + Ideal.exp (-x)) = Ideal.logistic x := by
  rw [Ideal.ofBits_one_f32]
  rfl

/-- The three 128-wide slices of a 384-wide row, at offsets 0, 128 and 256, read the reset, update and candidate
    blocks: column `q` of a slice is column `lo q`, `mid q`, `hi q` of the row. -/
theorem idx36 (p : Fin 200000) (q : Fin 128) : idx_main_v36 (ix2 p q) = ix2 p (lo q) := funext fun a => by
    match a with
    | ⟨0, _⟩ => rfl
    | ⟨1, _⟩ => rfl
theorem idx37 (p : Fin 200000) (q : Fin 128) : idx_main_v37 (ix2 p q) = ix2 p (mid q) := funext fun a => by
    match a with
    | ⟨0, _⟩ => rfl
    | ⟨1, _⟩ => rfl
theorem idx38 (p : Fin 200000) (q : Fin 128) : idx_main_v38 (ix2 p q) = ix2 p (hi q) := funext fun a => by
    match a with
    | ⟨0, _⟩ => rfl
    | ⟨1, _⟩ => rfl
theorem idx39 (p : Fin 200000) (q : Fin 128) : idx_main_v39 (ix2 p q) = ix2 p (lo q) := funext fun a => by
    match a with
    | ⟨0, _⟩ => rfl
    | ⟨1, _⟩ => rfl
theorem idx40 (p : Fin 200000) (q : Fin 128) : idx_main_v40 (ix2 p q) = ix2 p (mid q) := funext fun a => by
    match a with
    | ⟨0, _⟩ => rfl
    | ⟨1, _⟩ => rfl
theorem idx41 (p : Fin 200000) (q : Fin 128) : idx_main_v41 (ix2 p q) = ix2 p (hi q) := funext fun a => by
    match a with
    | ⟨0, _⟩ => rfl
    | ⟨1, _⟩ => rfl

/-- The reset gate at the entry `(p, q)`. -/
theorem r_eq_ix (x0 : (⟨S200000x16, .f32⟩ : BufTy).Contents (Elt Ideal)) (x1 : (⟨S200000x128, .f32⟩ : BufTy).Contents (Elt Ideal)) (x2 x3 : (⟨S1600000, .i32⟩ : BufTy).Contents (Elt Ideal)) (x4 : (⟨S1600000, .f32⟩ : BufTy).Contents (Elt Ideal)) (x5 : (⟨S128x144, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) (x9 : (⟨S384x128, .f32⟩ : BufTy).Contents (Elt Ideal)) (x10 : (⟨S384x128, .f32⟩ : BufTy).Contents (Elt Ideal)) (x11 : (⟨S384, .f32⟩ : BufTy).Contents (Elt Ideal)) (x12 : (⟨S384, .f32⟩ : BufTy).Contents (Elt Ideal)) (p : Fin 200000) (q : Fin 128) :
    val_main_v48 (F := Ideal) x0 x1 x2 x3 x4 x5 x6 x7 x8 x9 x10 x11 x12 (ix2 p q)
      = Ideal.logistic (gateI (fun j => val_main_v19 (F := Ideal) x0 x1 x2 x3 x4 x5 x6 (ix2 p j)) (fun a b => x7 (ix2 a b)) (fun a => x8 (ix1 a))
          (fun c k => x9 (ix2 c k)) (fun c => x11 (ix1 c)) (lo q)
        + gateH (fun k => x1 (ix2 p k)) (fun c k => x10 (ix2 c k)) (fun c => x12 (ix1 c)) (lo q)) := by
  rw [val_main_v48_apply, val_main_v47_apply, val_main_cst_2_apply, val_main_v46_apply, val_main_v45_apply,
    val_main_cst_1_apply, val_main_v44_apply, val_main_v43_apply, val_main_v42_apply, val_main_v36_apply,
    val_main_v39_apply, idx36, idx39, gi_eq_ix, gh_eq_ix]
  generalize val_main_v19 (F := Ideal) x0 x1 x2 x3 x4 x5 x6 = A
  simp only [Ideal.hostDivf_def, Ideal.addf_def, Ideal.subf_def, Ideal.mulf_def, Ideal.hostUnary_exp_def,
    Ideal.hostUnary_tanh_def, Ideal.hostNegf_def, Ideal.negf_def, Ideal.ofBits_def]
  exact sigmoid_eq _

/-- The update gate at the entry `(p, q)`. -/
theorem z_eq_ix (x0 : (⟨S200000x16, .f32⟩ : BufTy).Contents (Elt Ideal)) (x1 : (⟨S200000x128, .f32⟩ : BufTy).Contents (Elt Ideal)) (x2 x3 : (⟨S1600000, .i32⟩ : BufTy).Contents (Elt Ideal)) (x4 : (⟨S1600000, .f32⟩ : BufTy).Contents (Elt Ideal)) (x5 : (⟨S128x144, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) (x9 : (⟨S384x128, .f32⟩ : BufTy).Contents (Elt Ideal)) (x10 : (⟨S384x128, .f32⟩ : BufTy).Contents (Elt Ideal)) (x11 : (⟨S384, .f32⟩ : BufTy).Contents (Elt Ideal)) (x12 : (⟨S384, .f32⟩ : BufTy).Contents (Elt Ideal)) (p : Fin 200000) (q : Fin 128) :
    val_main_v55 (F := Ideal) x0 x1 x2 x3 x4 x5 x6 x7 x8 x9 x10 x11 x12 (ix2 p q)
      = Ideal.logistic (gateI (fun j => val_main_v19 (F := Ideal) x0 x1 x2 x3 x4 x5 x6 (ix2 p j)) (fun a b => x7 (ix2 a b)) (fun a => x8 (ix1 a))
          (fun c k => x9 (ix2 c k)) (fun c => x11 (ix1 c)) (mid q)
        + gateH (fun k => x1 (ix2 p k)) (fun c k => x10 (ix2 c k)) (fun c => x12 (ix1 c)) (mid q)) := by
  rw [val_main_v55_apply, val_main_v54_apply, val_main_cst_4_apply, val_main_v53_apply, val_main_v52_apply,
    val_main_cst_3_apply, val_main_v51_apply, val_main_v50_apply, val_main_v49_apply, val_main_v37_apply,
    val_main_v40_apply, idx37, idx40, gi_eq_ix, gh_eq_ix]
  generalize val_main_v19 (F := Ideal) x0 x1 x2 x3 x4 x5 x6 = A
  simp only [Ideal.hostDivf_def, Ideal.addf_def, Ideal.subf_def, Ideal.mulf_def, Ideal.hostUnary_exp_def,
    Ideal.hostUnary_tanh_def, Ideal.hostNegf_def, Ideal.negf_def, Ideal.ofBits_def]
  exact sigmoid_eq _

/-- The candidate at the entry `(p, q)`. -/
theorem n_eq_ix (x0 : (⟨S200000x16, .f32⟩ : BufTy).Contents (Elt Ideal)) (x1 : (⟨S200000x128, .f32⟩ : BufTy).Contents (Elt Ideal)) (x2 x3 : (⟨S1600000, .i32⟩ : BufTy).Contents (Elt Ideal)) (x4 : (⟨S1600000, .f32⟩ : BufTy).Contents (Elt Ideal)) (x5 : (⟨S128x144, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) (x9 : (⟨S384x128, .f32⟩ : BufTy).Contents (Elt Ideal)) (x10 : (⟨S384x128, .f32⟩ : BufTy).Contents (Elt Ideal)) (x11 : (⟨S384, .f32⟩ : BufTy).Contents (Elt Ideal)) (x12 : (⟨S384, .f32⟩ : BufTy).Contents (Elt Ideal)) (p : Fin 200000) (q : Fin 128) :
    val_main_v58 (F := Ideal) x0 x1 x2 x3 x4 x5 x6 x7 x8 x9 x10 x11 x12 (ix2 p q)
      = Ideal.tanh (gateI (fun j => val_main_v19 (F := Ideal) x0 x1 x2 x3 x4 x5 x6 (ix2 p j)) (fun a b => x7 (ix2 a b)) (fun a => x8 (ix1 a))
          (fun c k => x9 (ix2 c k)) (fun c => x11 (ix1 c)) (hi q)
        + Ideal.logistic (gateI (fun j => val_main_v19 (F := Ideal) x0 x1 x2 x3 x4 x5 x6 (ix2 p j)) (fun a b => x7 (ix2 a b)) (fun a => x8 (ix1 a))
          (fun c k => x9 (ix2 c k)) (fun c => x11 (ix1 c)) (lo q)
            + gateH (fun k => x1 (ix2 p k)) (fun c k => x10 (ix2 c k)) (fun c => x12 (ix1 c)) (lo q))
          * gateH (fun k => x1 (ix2 p k)) (fun c k => x10 (ix2 c k)) (fun c => x12 (ix1 c)) (hi q)) := by
  rw [val_main_v58_apply, val_main_v57_apply, val_main_v56_apply, val_main_v38_apply, val_main_v41_apply, idx38, idx41,
    gi_eq_ix, gh_eq_ix, r_eq_ix]
  generalize val_main_v19 (F := Ideal) x0 x1 x2 x3 x4 x5 x6 = A
  simp only [Ideal.hostDivf_def, Ideal.addf_def, Ideal.subf_def, Ideal.mulf_def, Ideal.hostUnary_exp_def,
    Ideal.hostUnary_tanh_def, Ideal.hostNegf_def, Ideal.negf_def, Ideal.ofBits_def]

/-- The cell's output at the entry `(p, q)`: the mixture `(1 - z) · n + z · h`. -/
theorem out_eq_ix (x0 : (⟨S200000x16, .f32⟩ : BufTy).Contents (Elt Ideal)) (x1 : (⟨S200000x128, .f32⟩ : BufTy).Contents (Elt Ideal)) (x2 x3 : (⟨S1600000, .i32⟩ : BufTy).Contents (Elt Ideal)) (x4 : (⟨S1600000, .f32⟩ : BufTy).Contents (Elt Ideal)) (x5 : (⟨S128x144, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) (x9 : (⟨S384x128, .f32⟩ : BufTy).Contents (Elt Ideal)) (x10 : (⟨S384x128, .f32⟩ : BufTy).Contents (Elt Ideal)) (x11 : (⟨S384, .f32⟩ : BufTy).Contents (Elt Ideal)) (x12 : (⟨S384, .f32⟩ : BufTy).Contents (Elt Ideal)) (p : Fin 200000) (q : Fin 128) :
    val_main_v63 (F := Ideal) x0 x1 x2 x3 x4 x5 x6 x7 x8 x9 x10 x11 x12 (ix2 p q)
      = gruRow (fun k => val_main_v19 (F := Ideal) x0 x1 x2 x3 x4 x5 x6 (ix2 p k)) (fun k => x1 (ix2 p k)) (fun a b => x7 (ix2 a b))
          (fun k => x8 (ix1 k)) (fun c k => x9 (ix2 c k)) (fun c k => x10 (ix2 c k)) (fun c => x11 (ix1 c)) (fun c => x12 (ix1 c)) q := by
  rw [val_main_v63_apply, val_main_v61_apply, val_main_v62_apply, val_main_v60_apply, val_main_v59_apply,
    val_main_cst_5_apply, z_eq_ix, n_eq_ix]
  generalize val_main_v19 (F := Ideal) x0 x1 x2 x3 x4 x5 x6 = A
  simp only [Ideal.hostDivf_def, Ideal.addf_def, Ideal.subf_def, Ideal.mulf_def, Ideal.hostUnary_exp_def,
    Ideal.hostUnary_tanh_def, Ideal.hostNegf_def, Ideal.negf_def, Ideal.ofBits_def]
  unfold gruRow
  rfl

/-- Stage one at an arbitrary index: row `i 0`, column `i 1`. -/
theorem msg_eq (x0 : (⟨S200000x16, .f32⟩ : BufTy).Contents (Elt Ideal)) (x1 : (⟨S200000x128, .f32⟩ : BufTy).Contents (Elt Ideal)) (x5 : (⟨S128x144, .f32⟩ : BufTy).Contents (Elt Ideal)) (x6 : (⟨S128, .f32⟩ : BufTy).Contents (Elt Ideal)) (i : S200000x128.Idx) :
    val_main_v6 (F := Ideal) x0 x1 x5 x6 i
      = msgRow (fun k => x1 (ix2 (i 0) k)) (fun k => x0 (ix2 (i 0) k)) (fun a k => x5 (ix2 a (Fin.castAdd 16 k)))
          (fun a k => x5 (ix2 a (Fin.natAdd 128 k))) (fun a => x6 (ix1 a)) (i 1) := by
  obtain ⟨p, q, rfl⟩ : ∃ (p : Fin 200000) (q : Fin 128), i = ix2 p q := ⟨i 0, i 1, eq_ix2 i⟩
  exact msg_eq_ix x0 x1 x5 x6 p q

/-- Stage three at an arbitrary index: row `i 0`, column `i 1`. -/
theorem out_eq (x0 : (⟨S200000x16, .f32⟩ : BufTy).Contents (Elt Ideal)) (x1 : (⟨S200000x128, .f32⟩ : BufTy).Contents (Elt Ideal)) (x2 x3 : (⟨S1600000, .i32⟩ : BufTy).Contents (Elt Ideal)) (x4 : (⟨S1600000, .f32⟩ : BufTy).Contents (Elt Ideal)) (x5 : (⟨S128x144, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) (x9 : (⟨S384x128, .f32⟩ : BufTy).Contents (Elt Ideal)) (x10 : (⟨S384x128, .f32⟩ : BufTy).Contents (Elt Ideal)) (x11 : (⟨S384, .f32⟩ : BufTy).Contents (Elt Ideal)) (x12 : (⟨S384, .f32⟩ : BufTy).Contents (Elt Ideal)) (i : S200000x128.Idx) :
    val_main_v63 (F := Ideal) x0 x1 x2 x3 x4 x5 x6 x7 x8 x9 x10 x11 x12 i
      = gruRow (fun k => val_main_v19 (F := Ideal) x0 x1 x2 x3 x4 x5 x6 (ix2 (i 0) k)) (fun k => x1 (ix2 (i 0) k)) (fun a b => x7 (ix2 a b))
          (fun k => x8 (ix1 k)) (fun c k => x9 (ix2 c k)) (fun c k => x10 (ix2 c k)) (fun c => x11 (ix1 c)) (fun c => x12 (ix1 c)) (i 1) := by
  obtain ⟨p, q, rfl⟩ : ∃ (p : Fin 200000) (q : Fin 128), i = ix2 p q := ⟨i 0, i 1, eq_ix2 i⟩
  exact out_eq_ix x0 x1 x2 x3 x4 x5 x6 x7 x8 x9 x10 x11 x12 p q

end Cert.EdgeGru.Ref

end
-- ==== Proof.Bridge.lean ====
/-
  The two programs compute one array.

  The kernel program's result is, row by row, the gated recurrent cell of the aggregated stage-one array and of the
  arguments; the reference's result is the same cell of ITS aggregated stage-one array. The two stage-one arrays agree
  entry by entry: the kernel's is the sum over the first 128 columns plus the sum over the last 16, the reference's
  the sum over the 144 columns of the concatenated row, and these are one sum. The aggregation between the stages
  is the same chain of host operations in both programs, applied to equal arrays, so it is never opened.
-/
import proofs.«102535_j48962627174424_1_alg».proof.Proof.KernelValue
import proofs.«102535_j48962627174424_1_alg».proof.Proof.Payloads
import proofs.«102535_j48962627174424_1_alg».proof.Proof.RefIsSpec

noncomputable section

namespace Cert.EdgeGru.Bridge

open Idealize.ShloMosaic Idealize.ShloMosaic.TcCoe Idealize.SL.Sem ValueIdx Cert.EdgeGru

/-- The sparse aggregation is spelt operation for operation alike by the two programs: as functions of the stage-one
    array and of the adjacency's rows, columns and values they are one function. -/
theorem agg_same (msg : (⟨Cert.KernelIdeal.S200000x128, .f32⟩ : BufTy).Contents (Elt Ideal))
    (rows cols : (⟨Cert.KernelIdeal.S1600000, .i32⟩ : BufTy).Contents (Elt Ideal)) (vals : (⟨Cert.KernelIdeal.S1600000, .f32⟩ : BufTy).Contents (Elt Ideal)) :
    KV.aggK msg rows cols vals = Ref.aggOf msg rows cols vals := by
  unfold KV.aggK Ref.aggOf Cert.ReferenceIdeal.Read.val_main_v17 Cert.ReferenceIdeal.Read.val_main_cst Cert.ReferenceIdeal.Read.val_main_v18 Cert.ReferenceIdeal.Read.val_main_v12
    Cert.ReferenceIdeal.Read.val_main_v11 Cert.ReferenceIdeal.Read.val_main_v8 Cert.ReferenceIdeal.Read.val_main_v7 Cert.ReferenceIdeal.Read.val_main_c Cert.ReferenceIdeal.Read.val_main_v10 Cert.ReferenceIdeal.Read.val_main_v9
    Cert.ReferenceIdeal.Read.val_main_c_0 Cert.ReferenceIdeal.Read.val_main_v15 Cert.ReferenceIdeal.Read.val_main_v14
  rfl

variable (m : (ℓ : Loc Cert.KernelIdeal.nD Cert.KernelIdeal.τ Cert.KernelIdeal.sig) → Buf (Elt Ideal) ℓ) (ρ : Dev Cert.KernelIdeal.nD → PrngReg)

/-- The stage-one arrays agree: the kernel's, read off its first kernel's blocks, and the reference's. -/
theorem msg_same (c : Dev Cert.KernelIdeal.nD) :
    Edge.edgeArr (Cert.KernelIdeal.Gen.V1 m ρ) c
      = Cert.ReferenceIdeal.Read.val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg5)) (m ((c.tc : Thread Cert.KernelIdeal.nD Cert.KernelIdeal.τ).loc Cert.KernelIdeal.main_arg6)) :=
  funext fun j => (KV.edge_rows m ρ c j).trans (Ref.msg_eq _ _ _ _ j).symm

/-- The kernel program's result array is the reference's result term of the same arguments. -/
theorem result_eq (c : Dev Cert.KernelIdeal.nD) :
    Gru.gruArr (Cert.KernelIdeal.Gen.V3 m ρ) c = Cert.ReferenceIdeal.Read.val_main_v63 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  funext i
  rw [KV.gru_rows m ρ Pay.edge_pay_apply c i, Ref.out_eq, Ref.v19_eq, msg_same m ρ c, agg_same]

end Cert.EdgeGru.Bridge

end
-- ==== Proof.lean ====
/-
  The certificate of the edge layer: a line-graph message-passing step (edge-linear + rectifier, a sparse
  aggregation over the adjacency, pass-linear + rectifier, a gated recurrent cell) computed by two Pallas kernels
  around a host aggregation, against the plain jnp reference.

  Frames. Both printed kernels' programs run, fault nowhere and leave their arguments alone: the generated frame
  certificates. The reference is host operations only: its generated run, with the result dropped.
  Preserves. The ideal pass rewrote nothing, so there is nothing to state.
  Algebraic. At the exact semantics (floats are extended reals, every format change is the identity) both programs
  end with the same array. The kernel program's result is read off its two kernels' blocks and the two host
  stretches as the gated recurrent cell, row by row, of the aggregated stage-one array; the reference's result is
  read one operation at a time as the same cell of its aggregated stage-one array; the stage-one arrays agree
  because a sum over the 144 columns of a concatenated row is the sum over its first 128 columns plus the sum over
  its last 16; the aggregation is the same chain of operations on both sides. A logistic gate is by definition
  `1 / (1 + exp (-x))` on every extended real, which is how the reference spells it, so no step needs the inputs
  to be finite and the precondition is never opened.
-/
import proofs.«102535_j48962627174424_1_alg».proof.Defs
import proofs.«102535_j48962627174424_1_alg».proof.Proof.Gen.Kernel
import proofs.«102535_j48962627174424_1_alg».proof.Proof.Gen.Kernel.Skeleton
import proofs.«102535_j48962627174424_1_alg».proof.Proof.Gen.Kernel.Launch
import proofs.«102535_j48962627174424_1_alg».proof.Proof.Gen.Kernel.Points
import proofs.«102535_j48962627174424_1_alg».proof.Proof.Gen.Kernel.Frame
import proofs.«102535_j48962627174424_1_alg».proof.Proof.Gen.KernelIdeal
import proofs.«102535_j48962627174424_1_alg».proof.Proof.Gen.KernelIdeal.Skeleton
import proofs.«102535_j48962627174424_1_alg».proof.Proof.Gen.KernelIdeal.Launch
import proofs.«102535_j48962627174424_1_alg».proof.Proof.Gen.KernelIdeal.Points
import proofs.«102535_j48962627174424_1_alg».proof.Proof.Gen.KernelIdeal.Frame
import proofs.«102535_j48962627174424_1_alg».proof.Proof.Gen.ReferenceIdeal
import proofs.«102535_j48962627174424_1_alg».proof.Proof.Gen.Pre_finite_inputs
import proofs.«102535_j48962627174424_1_alg».proof.Proof.Gen.ReferenceIdeal.Run
import proofs.«102535_j48962627174424_1_alg».proof.Proof.Gen.ReferenceIdeal.Read
import proofs.«102535_j48962627174424_1_alg».proof.Proof.RunEnds
import proofs.«102535_j48962627174424_1_alg».proof.Proof.Bridge
import Idealize.ShloMosaic.Adequacy
import Idealize.ShloMosaic.Init

noncomputable section

namespace Cert.Proof

open Idealize.ShloMosaic Idealize.SL.Sem

/-- The printed kernel program runs and leaves its arguments alone. -/
theorem frame_k [Cert.Kernel.Facts] [Cert.Pre_finite_inputs.Facts] : Cert.frame_Kernel :=
  fun m ρ _ => Cert.Kernel.Gen.frame m ρ

/-- So does its idealization. -/
theorem frame_ki [Cert.KernelIdeal.Facts] [Cert.Pre_finite_inputs.Facts] : Cert.frame_KernelIdeal :=
  fun m ρ _ => Cert.KernelIdeal.Gen.frame m ρ

/-- The reference is host operations only: its run, with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories that agree on the arguments both programs end with the stage-three array of the kernel program's
    second kernel: the kernel program because that is what its result buffer holds after the run, the reference because
    its result term is that array of equal arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.EdgeGru.Gru.gruArr (Cert.KernelIdeal.Gen.V3 m ρ) c, ?_, ?_⟩
  · exact (θ_run Cert.KernelIdeal.defs _ _).mono
      (fun r h c => ⟨(h c).1.trans (Cert.EdgeGru.KV.W4_v20 m ρ Cert.EdgeGru.Pay.gru_pay_apply c), (h c).2⟩)
      (Cert.EdgeGru.Run.run_ends (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v63_eq, h0, h1, h2, h3, h4, h5, h6, h7, h8, h9, h10, h11, h12]
    exact (Cert.EdgeGru.Bridge.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
